-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  main_v3
-- ==== Kernel.lean ====
abbrev S4x4096x1024 : Shape := ⟨3, ![4, 4096, 1024]⟩
abbrev S4x256x1024 : Shape := ⟨3, ![4, 256, 1024]⟩
abbrev S4x512x1024 : Shape := ⟨3, ![4, 512, 1024]⟩
abbrev S4x256x1 : Shape := ⟨3, ![4, 256, 1]⟩
abbrev S4x256x512 : Shape := ⟨3, ![4, 256, 512]⟩
abbrev S4x256 : Shape := ⟨2, ![4, 256]⟩

abbrev nBuf : Space → Nat
  | .hbm => 3
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x4096x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x512x1024, .bf16⟩
  | .local _ .vmem, ⟨3, _⟩ => ⟨S4x512x1024, .bf16⟩
  | .local _ .vmem, ⟨4, _⟩ => ⟨S4x256x1024, .f32⟩
  | .local _ .vmem, ⟨5, _⟩ => ⟨S4x256x1024, .f32⟩
  | .local _ .vmem, ⟨6, _⟩ => ⟨S4x256x1, .f32⟩
  | .local _ .vmem, ⟨7, _⟩ => ⟨S4x256x1, .f32⟩
  | .local _ .vmem, ⟨8, _⟩ => ⟨S4x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_27 : BitVec 32 := 0#32
  let v39 : BitVec 1 := Scalar.cmpi .ne v38 c0_i32_27
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S4x256x1024 : S4x256x1024.ShapeCasts S4x256x1024
  inb_S4x512x1024_S4x512x1024_0_0_0 : ∀ a, (![0, 0, 0] : Fin 3 → Nat) a + S4x512x1024.size a ≤ S4x512x1024.size a
  h_S4x512x1024 : 0 < S4x512x1024.numel
  shapeCasts_S4x512x1024_S4x512x1024 : S4x512x1024.ShapeCasts S4x512x1024
  reduces_S4x256x512_S4x256 : S4x256x512.Reduces [2] S4x256
  shapeCasts_S4x256_S4x256x1 : S4x256.ShapeCasts S4x256x1
  broadcasts_S4x256x1_S4x256x512 : S4x256x1.Broadcasts S4x256x512
  broadcasts_S4x256x1_S4x256x1024 : S4x256x1.Broadcasts S4x256x1024
  dot_S4x256x1024_S4x512x1024_S4x256x512_2_2_1_1_0_0_wf : DotDims.WF S4x256x1024 S4x512x1024 S4x256x512 [2] [2] [1] [1] [0] [0]
  dot_S4x256x512_S4x512x1024_S4x256x1024_2_1_1_2_0_0_wf : DotDims.WF S4x256x512 S4x512x1024 S4x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x1024.size a ≤ S4x4096x1024.size a
  hwx0_0 : ∀ i : grid0.Coords, EltTy.bits .bf16 = 32 ∨ (Rect.block (s := S4x4096x1024) S4x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x1024.size a ≤ S4x4096x1024.size a
  hwx0_1 : ∀ i : grid0.Coords, EltTy.bits .bf16 = 32 ∨ (Rect.block (s := S4x4096x1024) S4x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x1024.size a ≤ S4x4096x1024.size a
  hwx0_2 : ∀ i : grid0.Coords, EltTy.bits .f32 = 32 ∨ (Rect.block (s := S4x4096x1024) S4x256x1024.size (cc0_transform_2 i) (hinb0_2 i)).WholeWords (EltTy.packing .f32)

variable [Facts₀]

def dot_S4x256x1024_S4x512x1024_S4x256x512_2_2_1_1_0_0 : DotDims S4x256x1024 S4x512x1024 S4x256x512 where
  lhsContracting := [2]
  rhsContracting := [2]
  lhsNonContracting := [1]
  rhsNonContracting := [1]
  lhsBatch := [0]
  rhsBatch := [0]
  wf := dot_S4x256x1024_S4x512x1024_S4x256x512_2_2_1_1_0_0_wf
def dot_S4x256x512_S4x512x1024_S4x256x1024_2_1_1_2_0_0 : DotDims S4x256x512 S4x512x1024 S4x256x1024 where
  lhsContracting := [2]
  rhsContracting := [1]
  lhsNonContracting := [1]
  rhsNonContracting := [2]
  lhsBatch := [0]
  rhsBatch := [0]
  wf := dot_S4x256x512_S4x512x1024_S4x256x1024_2_1_1_2_0_0_wf

abbrev win0_0 : Pipeline.Window sig grid0 :=
  Pipeline.Window.ofSpec (Memref.whole main_v0) S4x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x4096, .f32⟩
  | .hbm, ⟨2, _⟩ => ⟨S_, .f32⟩
  | .hbm, ⟨3, _⟩ => ⟨S4x4096, .f32⟩
  | .hbm, ⟨4, _⟩ => ⟨S_, .f32⟩
  | .hbm, ⟨5, _⟩ => ⟨S4x4096, .f32⟩
  | .hbm, ⟨6, _⟩ => ⟨S4x4096, .f32⟩
  | .hbm, ⟨7, _⟩ => ⟨S4x4096x1, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.Kernel.Shared.lean ====
/-
  What the frame of Kernel's one pipelined call rests on, apart from the body's runs: the contents the region finds in
  the arrays (the argument converted once on the host), the two conditions the body branches on as closed forms of
  the grid point (the key-block coordinate is 0; it is 7), where the output window is idle, the blocks the two
  input windows hold at each point, and the scratch buffers as memrefs.
  The grid is 16 query tiles by 8 key blocks, walked key block fastest: point t is query tile t / 8, key block t % 8.
-/
import proofs.«103140_j1494648619253_2_alg».proof.Proof.Gen.Kernel.Launch
import proofs.«103140_j1494648619253_2_alg».proof.Proof.Gen.Kernel.Skeleton
import proofs.«103140_j1494648619253_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: after the one host operation, the argument's conversion. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the conversion, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The conversion writes its own result only: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's buffer holds its block at every point, fetched there or not: between fetches the block index
    does not move (it reads the query-tile coordinate only) and the body leaves the buffer as found. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's buffer likewise (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first conditional's test: the key-block coordinate is 0 (the scalar chain the body computes). -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's test: the key-block coordinate is 7, the last. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last key block the body stores nothing into the output window, and the block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last key block the output window is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S4x256x1024 .f32 := (Memref.whole cc0_stg2_0 : Memref sig .tc .vmem S4x256x1024 .f32).view
abbrev ms0_0 (t : Fin cfg0.N) : Memref sig .tc .vmem S4x256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x256x1024 .f32 := win0_2.stage (cfg0.slots t 2)
abbrev hs0_2 (t : Fin cfg0.N) : (ms0_2 t).IsWhole := hstage0_2 ((cfg0.slots t 2).cast nbuf0_2)
/-- The three scratch buffers: the running maximum, the running denominator, the running numerator. -/
abbrev scM0_0 : Memref sig .tc .vmem S4x256x1 .f32 := Memref.whole cc0_scratch0
abbrev scM0_1 : Memref sig .tc .vmem S4x256x1 .f32 := Memref.whole cc0_scratch1
abbrev scM0_2 : Memref sig .tc .vmem S4x256x1024 .f32 := Memref.whole cc0_scratch2
abbrev VS0_0 : View sig .tc .vmem S4x256x1 .f32 := scM0_0.view
abbrev VS0_1 : View sig .tc .vmem S4x256x1 .f32 := scM0_1.view
abbrev VS0_2 : View sig .tc .vmem S4x256x1024 .f32 := scM0_2.view

/-- The region's class invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Frm

end
-- ==== Proof.Kernel.RunB.lean ====
/-
  The body at a point whose key block is neither the first nor the last: it loads the query and key blocks and the three
  running quantities, and stores the new denominator, numerator and maximum; the output window is left untouched.
  The run finds, for each scratch buffer, the pieces its stores leave.
-/
import proofs.«103140_j1494648619253_2_alg».proof.Proof.Kernel.Shared

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The middle case: neither conditional taken. -/
noncomputable def kernelRun0_B (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) :
    Σ' (L2 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (xi2 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_fwd_kernel i arg2 harg2 arg3 harg3 arg4 harg4 arg5 harg5 arg6 harg6 arg7 harg7) K } := by
  refine ⟨[], ?_, ?_, ?_, fun xi2 E K => ?run⟩
  case run =>
    simp only [cc0__flash_fwd_kernel_eq_skeleton]; unfold cc0__flash_fwd_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Frm

end
-- ==== Proof.Kernel.RunA.lean ====
/-
  The body at a point whose key block is the first: it first resets the three running quantities (maximum to minus
  infinity, denominator and numerator to zero), whatever they held, then proceeds as at a middle point; the output
  window is left untouched.
-/
import proofs.«103140_j1494648619253_2_alg».proof.Proof.Kernel.RunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The first-key-block case: the reset taken, the finalisation not. -/
noncomputable def kernelRun0_A (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) :
    Σ' (L2 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (xi2 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_fwd_kernel i arg2 harg2 arg3 harg3 arg4 harg4 arg5 harg5 arg6 harg6 arg7 harg7) K } := by
  refine ⟨[], ?_, ?_, ?_, fun xi2 E K => ?run⟩
  case run =>
    simp only [cc0__flash_fwd_kernel_eq_skeleton]; unfold cc0__flash_fwd_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Frm

end
-- ==== Proof.Kernel.RunC.lean ====
/-
  The body at a point whose key block is the last: after the update of the three running quantities it divides the
  numerator by the denominator, row by row, and stores the quotient over the whole output block.
-/
import proofs.«103140_j1494648619253_2_alg».proof.Proof.Kernel.RunA

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The last-key-block case: the reset not taken, the finalisation taken. -/
noncomputable def kernelRun0_C (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) :
    Σ' (L2 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_fwd_kernel i arg2 harg2 arg3 harg3 arg4 harg4 arg5 harg5 arg6 harg6 arg7 harg7) K } := by
  refine ⟨?_, ?_, ?_, ?_, fun E K => ?run⟩
  case run =>
    simp only [cc0__flash_fwd_kernel_eq_skeleton]; unfold cc0__flash_fwd_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.Kernel.Frm

end
-- ==== Proof.Kernel.Frame.lean ====
/-
  The frame of Kernel's pipelined call, and what its result array holds afterwards.
  After each grid point the three scratch buffers hold the running maximum, denominator and numerator of the point's
  query tile over the key blocks seen so far: a recursion on the point (reset at a query tile's first key block,
  updated at every block). The output block is stored, and written back, only at a tile's last key block. The two
  input windows read one array, the converted argument: the array's points-to is split in two halves, one per window,
  for the length of the region.
-/
import proofs.«103140_j1494648619253_2_alg».proof.Proof.Kernel.RunC

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What case A leaves in the output window's buffer, its pieces read back (none: the window is idle there and nothing consults this). -/
def out0_A_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) : Vec F S4x256x1024 .f32 :=
  VO0_2.read (Elt F) (VO0_2.writes (Elt F) VO0_2.junk (kernelRun0_A c i arg2 harg2 arg3 harg3 arg4 harg4 arg5 harg5 arg6 harg6 arg7 harg7 hc0 hc1 x0 x1).1)

/-- Case A's stores into scratch 0 cover it. -/
theorem scover0_A_0 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) (y : S4x256x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S4x256x1.size (by sl_kernel_rfl) y

/-- What case A leaves in scratch 0. -/
def sout0_A_0 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) : Vec F S4x256x1 .f32 :=
  VS0_0.read (Elt F) (VS0_0.writes (Elt F) VS0_0.junk (kernelRun0_A c i arg2 harg2 arg3 harg3 arg4 harg4 arg5 harg5 arg6 harg6 arg7 harg7 hc0 hc1 x0 x1).2.1)

/-- Case A's stores into scratch 1 cover it. -/
theorem scover0_A_1 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) (y : S4x256x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S4x256x1.size (by sl_kernel_rfl) y

/-- What case A leaves in scratch 1. -/
def sout0_A_1 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) : Vec F S4x256x1 .f32 :=
  VS0_1.read (Elt F) (VS0_1.writes (Elt F) VS0_1.junk (kernelRun0_A c i arg2 harg2 arg3 harg3 arg4 harg4 arg5 harg5 arg6 harg6 arg7 harg7 hc0 hc1 x0 x1).2.2.1)

/-- Case A's stores into scratch 2 cover it. -/
theorem scover0_A_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) (y : S4x256x1024.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S4x256x1024.size (by sl_kernel_rfl) y

/-- What case A leaves in scratch 2. -/
def sout0_A_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) : Vec F S4x256x1024 .f32 :=
  VS0_2.read (Elt F) (VS0_2.writes (Elt F) VS0_2.junk (kernelRun0_A c i arg2 harg2 arg3 harg3 arg4 harg4 arg5 harg5 arg6 harg6 arg7 harg7 hc0 hc1 x0 x1).2.2.2.1)

/-- What case B leaves in the output window's buffer, its pieces read back (none: the window is idle there and nothing consults this). -/
def out0_B_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1024 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1 xs2).1)

/-- Case B's stores into scratch 0 cover it. -/
theorem scover0_B_0 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1.Idx) :
    ∃ pc ∈ (kernelRun0_B c i arg2 harg2 arg3 harg3 arg4 harg4 arg5 harg5 arg6 harg6 arg7 harg7 hc0 hc1 x0 x1 xs0 xs1 xs2).2.1, y ∈ pc.1.set :=
  View.cover_of_tiledL (kernelRun0_B c i arg2 harg2 arg3 harg3 arg4 harg4 arg5 harg5 arg6 harg6 arg7 harg7 hc0 hc1 x0 x1 xs0 xs1 xs2).2.1 S4x256x1.size (by sl_kernel_rfl) y

/-- What case B leaves in scratch 0. -/
def sout0_B_0 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1 xs2).2.1)

/-- Case B's stores into scratch 1 cover it. -/
theorem scover0_B_1 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1.Idx) :
    ∃ pc ∈ (kernelRun0_B c i arg2 harg2 arg3 harg3 arg4 harg4 arg5 harg5 arg6 harg6 arg7 harg7 hc0 hc1 x0 x1 xs0 xs1 xs2).2.2.1, y ∈ pc.1.set :=
  View.cover_of_tiledL (kernelRun0_B c i arg2 harg2 arg3 harg3 arg4 harg4 arg5 harg5 arg6 harg6 arg7 harg7 hc0 hc1 x0 x1 xs0 xs1 xs2).2.2.1 S4x256x1.size (by sl_kernel_rfl) y

/-- What case B leaves in scratch 1. -/
def sout0_B_1 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1 xs2).2.2.1)

/-- Case B's stores into scratch 2 cover it. -/
theorem scover0_B_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1024.Idx) :
    ∃ pc ∈ (kernelRun0_B c i arg2 harg2 arg3 harg3 arg4 harg4 arg5 harg5 arg6 harg6 arg7 harg7 hc0 hc1 x0 x1 xs0 xs1 xs2).2.2.2.1, y ∈ pc.1.set :=
  View.cover_of_tiledL (kernelRun0_B c i arg2 harg2 arg3 harg3 arg4 harg4 arg5 harg5 arg6 harg6 arg7 harg7 hc0 hc1 x0 x1 xs0 xs1 xs2).2.2.2.1 S4x256x1024.size (by sl_kernel_rfl) y

/-- What case B leaves in scratch 2. -/
def sout0_B_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1024 .f32 :=
  VS0_2.read (Elt F) (VS0_2.writes (Elt F) VS0_2.junk (kernelRun0_B c i arg2 harg2 arg3 harg3 arg4 harg4 arg5 harg5 arg6 harg6 arg7 harg7 hc0 hc1 x0 x1 xs0 xs1 xs2).2.2.2.1)

/-- At the last key block the one store into the output window covers its block. -/
theorem cover0_C_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1024.Idx) :
    ∃ pc ∈ (kernelRun0_C c i arg2 harg2 arg3 harg3 arg4 harg4 arg5 harg5 arg6 harg6 arg7 harg7 hc0 hc1 x0 x1 xs0 xs1 xs2).1, y ∈ pc.1.set :=
  View.cover_of_tiledL (kernelRun0_C c i arg2 harg2 arg3 harg3 arg4 harg4 arg5 harg5 arg6 harg6 arg7 harg7 hc0 hc1 x0 x1 xs0 xs1 xs2).1 S4x256x1024.size (by sl_kernel_rfl) y

/-- What case C leaves in the output window's buffer, its pieces read back. -/
def out0_C_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1024 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1 xs2).1)

/-- Case C's stores into scratch 0 cover it. -/
theorem scover0_C_0 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1.Idx) :
    ∃ pc ∈ (kernelRun0_C c i arg2 harg2 arg3 harg3 arg4 harg4 arg5 harg5 arg6 harg6 arg7 harg7 hc0 hc1 x0 x1 xs0 xs1 xs2).2.1, y ∈ pc.1.set :=
  View.cover_of_tiledL (kernelRun0_C c i arg2 harg2 arg3 harg3 arg4 harg4 arg5 harg5 arg6 harg6 arg7 harg7 hc0 hc1 x0 x1 xs0 xs1 xs2).2.1 S4x256x1.size (by sl_kernel_rfl) y

/-- What case C leaves in scratch 0. -/
def sout0_C_0 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1 xs2).2.1)

/-- Case C's stores into scratch 1 cover it. -/
theorem scover0_C_1 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1.Idx) :
    ∃ pc ∈ (kernelRun0_C c i arg2 harg2 arg3 harg3 arg4 harg4 arg5 harg5 arg6 harg6 arg7 harg7 hc0 hc1 x0 x1 xs0 xs1 xs2).2.2.1, y ∈ pc.1.set :=
  View.cover_of_tiledL (kernelRun0_C c i arg2 harg2 arg3 harg3 arg4 harg4 arg5 harg5 arg6 harg6 arg7 harg7 hc0 hc1 x0 x1 xs0 xs1 xs2).2.2.1 S4x256x1.size (by sl_kernel_rfl) y

/-- What case C leaves in scratch 1. -/
def sout0_C_1 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1 xs2).2.2.1)

/-- Case C's stores into scratch 2 cover it. -/
theorem scover0_C_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1024.Idx) :
    ∃ pc ∈ (kernelRun0_C c i arg2 harg2 arg3 harg3 arg4 harg4 arg5 harg5 arg6 harg6 arg7 harg7 hc0 hc1 x0 x1 xs0 xs1 xs2).2.2.2.1, y ∈ pc.1.set :=
  View.cover_of_tiledL (kernelRun0_C c i arg2 harg2 arg3 harg3 arg4 harg4 arg5 harg5 arg6 harg6 arg7 harg7 hc0 hc1 x0 x1 xs0 xs1 xs2).2.2.2.1 S4x256x1024.size (by sl_kernel_rfl) y

/-- What case C leaves in scratch 2. -/
def sout0_C_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1024 .f32 :=
  VS0_2.read (Elt F) (VS0_2.writes (Elt F) VS0_2.junk (kernelRun0_C c i arg2 harg2 arg3 harg3 arg4 harg4 arg5 harg5 arg6 harg6 arg7 harg7 hc0 hc1 x0 x1 xs0 xs1 xs2).2.2.2.1)

/-! ## What the buffers hold after each point -/

/-- After the body at position n: the output window's buffer, then the three scratch buffers. -/
def outsAt0 (c : Dev nD) : (n : ℕ) → n < cfg0.N → Vec F S4x256x1024 .f32 × Vec F S4x256x1 .f32 × Vec F S4x256x1 .f32 × Vec F S4x256x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scratch buffers at some contents: what the region is entered with. -/
def Phi0 (c : Dev nD) : sProp 𝕄 :=
  iprop((∃ d, owns (c : Thread nD τ) scM0_0 fullShare d) ∗ (∃ d, owns (c : Thread nD τ) scM0_1 fullShare d) ∗ (∃ d, owns (c : Thread nD τ) scM0_2 fullShare d))

theorem scopedRest0_owns (c : Dev nD) : (Pipeline.scopedRest spec0 c : sProp 𝕄) = Phi0 c := by
  unfold Phi0; rw [scopedRest0_eq]; simp only [scM0_0, scM0_1, scM0_2, owns_whole]; try rfl

/-- Before position n: at the start anything; afterwards each scratch buffer at what the point before left. -/
def PhiS (c : Dev nD) : (n : ℕ) → n ≤ cfg0.N → sProp 𝕄
  | 0, _ => Phi0 c
  | n + 1, hn => iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2)

theorem PhiS_zero (c : Dev nD) (n : ℕ) (h : n ≤ cfg0.N) (hz : n = 0) : PhiS m c n h = Phi0 c := by
  subst hz; rfl

theorem PhiS_succ (c : Dev nD) (n : ℕ) (hn : n < cfg0.N) :
    PhiS m c (n + 1) hn = iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2) := rfl

theorem PhiS_pos (c : Dev nD) (n : ℕ) (h : n ≤ cfg0.N) (hz : n ≠ 0) :
    PhiS m c n h = iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2) := by
  cases n with
  | zero => exact absurd rfl hz
  | succ n => rfl

/-- Named contents forgotten. -/
theorem PhiS_weaken (c : Dev nD) (n : ℕ) (h : n ≤ cfg0.N) : PhiS m c n h ⊢ Phi0 c := by
  cases n with
  | zero => exact Idealize.SL.BI.Entails.refl _
  | succ n =>
    rw [PhiS_succ]; unfold Phi0
    iintro ⟨H0, H1, H2⟩
    isplitl [H0]; · iexists _; iexact H0
    isplitl [H1]; · iexists _; iexact H1
    iexists _; iexact H2

/-! ## The proof data -/

/-- The arrays as the region finds them; after the body each input's buffer at its block, the output's at the
    recursion's first component; the two input windows hold the converted argument at one half share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the closed forms say which case the point is in; that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  have hN : t.val < 128 := lt_of_lt_of_eq t.isLt (show cfg0.N = 128 from N_0)
  by_cases h0 : t.val % 8 = 0
  · by_cases h1 : t.val % 8 = 7
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0 sout0_A_1 sout0_A_2; (try dsimp only)
      rw [PhiS_castSucc m c t]
      iintro ⟨HS, Ho, ⟨%d0, H0⟩, ⟨%d1, H1⟩, ⟨%d2, H2⟩⟩
      ihave HS' := (PhiS_weaken m c _ _) $$ HS
      unfold Phi0
      icases HS' with ⟨HS0, HS1, HS2⟩
      iapply ((kernelRun0_A c (grid0.coords t) _ _ _ _ _ _ _ _ _ _ _ _ ((hcond0_0 t).mpr h0) (fun h => h1 ((hcond0_1 t).mp h)) (iblk m c 0 t) (iblk m c 1 t)).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_A_0 c _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _)
        unfold owns; iexists _; isplitr
        swap; · iexact HS2
        ipureintro; exact View.read_writes_of_cover _ _ _ _ _ (scover0_A_2 c _ _ _ _ _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0 sout0_C_1 sout0_C_2; (try dsimp only)
      rw [PhiS_castSucc m c t, PhiS_pos m c _ _ hz]
      iintro ⟨⟨HS0, HS1, HS2⟩, Ho, ⟨%d0, H0⟩, ⟨%d1, H1⟩, ⟨%d2, H2⟩⟩
      iapply ((kernelRun0_C c (grid0.coords t) _ _ _ _ _ _ _ _ _ _ _ _ (fun h => h0 ((hcond0_0 t).mp h)) ((hcond0_1 t).mpr h1) (iblk m c 0 t) (iblk m c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _)
        unfold owns; iexists _; isplitr
        swap; · iexact HS2
        ipureintro; exact View.read_writes_of_cover _ _ _ _ _ (scover0_C_2 c _ _ _ _ _ _ _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨HS0, HS1, HS2⟩, Ho, ⟨%d0, H0⟩, ⟨%d1, H1⟩, ⟨%d2, H2⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _)
        unfold owns; iexists _; isplitr
        swap; · iexact HS2
        ipureintro; exact View.read_writes_of_cover _ _ _ _ _ (scover0_B_2 c _ _ _ _ _ _ _ _ _ _ _ _ _ _ _ _ _ _ _ _)
      isplitl [Ho]; · iexact Ho
      isplitl [H0]; · iexact H0
      isplitl [H1]; · iexact H1
      iexists _; iexact H2

/-- The body obligation at every point. -/
theorem body_obligation (c : Dev nD) : BodyObligation (dats (F := F) m 0 c) (defs₀ (F := F)) Variants.none () Set.univ := fun t => by
  rw [bigSep_W0, bigSep_W0]
  exact sound_body m c t

end Cert.Kernel.Frm

end
-- ==== Proof.Kernel.Launch.lean ====
/-
  The launch of Kernel's region and the run of @main.
  The converted argument is read by both input windows. Its buffer, held whole when the region is entered, is split
  into a left and a right half share, one per window; reading needs no more, and the halves rejoin when the region
  ends. The output array is a different buffer and is held whole.
-/
import proofs.«103140_j1494648619253_2_alg».proof.Proof.Kernel.Frame

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁

/-- The launch element: every staging cell's owner at round 0 and a duty token per transfer the pipeline issues. -/
def u₀ : UR sig nD τ := initOf (Pipeline.cells cfgs cellOf_inj) (Pipeline.launchToks cfgs cellOf_inj)

/-- The two buffers behind the three windows' arrays, whole, are the windows' arrays at the proof data's shares. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  have e : (bigSep (Finset.univ.image (Pipeline.arrRef spec0)) fun b => (((c.tc : Thread nD τ).loc b) ↦{fullShare} V m c b : sProp 𝕄))
      = iprop((((c.tc : Thread nD τ).loc main_v0) ↦{fullShare} V m c main_v0) ∗ (((c.tc : Thread nD τ).loc main_v1) ↦{fullShare} V m c main_v1)) :=
    Idealize.SL.BI.bigSep_eq_bigSepL_of_eq [main_v0, main_v1] (by decide) (by decide) _
  rw [e]
  rw [(arr_whole0 0).set_eq_univ, (arr_whole0 2).set_eq_univ]
  rw [show (dats m 0 c).share 0 = fullShare.left from rfl, show (dats m 0 c).share 1 = fullShare.right from rfl,
    show (dats m 0 c).share 2 = fullShare from rfl]
  iintro ⟨H0, H1⟩
  ihave H0' := (pointsTo_share (PosShare.mem_left_op_right fullShare)).1 $$ H0
  icases H0' with ⟨HL, HR⟩
  isplitl [HL]; · iexact HL
  isplitl [HR]; · iexact HR
  iexact H1

/-- The run's post: every window's array at what the library computes from the proof data, the argument unchanged. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c.tc : Thread nD τ).loc main_arg0) = m ((c.tc : Thread nD τ).loc main_arg0)

set_option backward.isDefEq.respectTransparency.types false in
/-- Every weakly fair execution of @main terminates, faults nowhere, and ends in QC. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [show (dats m 0 c).Φ 0 = PhiS m c 0 (Nat.zero_le _) from rfl, PhiS_zero m c 0 _ rfl, scopedRest0_owns]
      iintro ⟨-, H⟩; iexact H)
    (hout := fun c => by
      rw [show (dats m 0 c).Φ (Fin.last cfg0.N) = PhiS m c (Fin.last cfg0.N).val (Nat.le_of_lt_succ (Fin.last cfg0.N).isLt) from rfl, scopedRest0_owns]
      refine (PhiS_weaken m c _ _).trans ?_
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, ((h c).2 main_arg0 (Pipeline.mem_restRefs_of main_arg0 rfl (fun w => by fin_cases w <;> decide))).trans (V_main_arg0 m c)⟩)

/-- info: 'Cert.Kernel.Frm.run_main' depends on axioms: [propext, Classical.choice, Quot.sound] -/
#guard_msgs in #print axioms run_main

/-- The frame: @main runs to the end, faults nowhere, and leaves its argument as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Frm

end
-- ==== Proof.KernelIdeal.Shared.lean ====
/-
  What the frame of KernelIdeal's one pipelined call rests on, apart from the body's runs: the contents the region finds in
  the arrays (the argument converted once on the host), the two conditions the body branches on as closed forms of
  the grid point (the key-block coordinate is 0; it is 7), where the output window is idle, the blocks the two
  input windows hold at each point, and the scratch buffers as memrefs.
  The grid is 16 query tiles by 8 key blocks, walked key block fastest: point t is query tile t / 8, key block t % 8.
-/
import proofs.«103140_j1494648619253_2_alg».proof.Proof.Gen.KernelIdeal.Launch
import proofs.«103140_j1494648619253_2_alg».proof.Proof.Gen.KernelIdeal.Skeleton
import proofs.«103140_j1494648619253_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: after the one host operation, the argument's conversion. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the conversion, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The conversion writes its own result only: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's buffer holds its block at every point, fetched there or not: between fetches the block index
    does not move (it reads the query-tile coordinate only) and the body leaves the buffer as found. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's buffer likewise (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first conditional's test: the key-block coordinate is 0 (the scalar chain the body computes). -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's test: the key-block coordinate is 7, the last. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last key block the body stores nothing into the output window, and the block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last key block the output window is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S4x256x1024 .f32 := (Memref.whole cc0_stg2_0 : Memref sig .tc .vmem S4x256x1024 .f32).view
abbrev ms0_0 (t : Fin cfg0.N) : Memref sig .tc .vmem S4x256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x256x1024 .f32 := win0_2.stage (cfg0.slots t 2)
abbrev hs0_2 (t : Fin cfg0.N) : (ms0_2 t).IsWhole := hstage0_2 ((cfg0.slots t 2).cast nbuf0_2)
/-- The three scratch buffers: the running maximum, the running denominator, the running numerator. -/
abbrev scM0_0 : Memref sig .tc .vmem S4x256x1 .f32 := Memref.whole cc0_scratch0
abbrev scM0_1 : Memref sig .tc .vmem S4x256x1 .f32 := Memref.whole cc0_scratch1
abbrev scM0_2 : Memref sig .tc .vmem S4x256x1024 .f32 := Memref.whole cc0_scratch2
abbrev VS0_0 : View sig .tc .vmem S4x256x1 .f32 := scM0_0.view
abbrev VS0_1 : View sig .tc .vmem S4x256x1 .f32 := scM0_1.view
abbrev VS0_2 : View sig .tc .vmem S4x256x1024 .f32 := scM0_2.view

/-- The region's class invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Frm

end
-- ==== Proof.KernelIdeal.RunB.lean ====
/-
  The body at a point whose key block is neither the first nor the last: it loads the query and key blocks and the three
  running quantities, and stores the new denominator, numerator and maximum; the output window is left untouched.
  The run finds, for each scratch buffer, the pieces its stores leave.
-/
import proofs.«103140_j1494648619253_2_alg».proof.Proof.KernelIdeal.Shared

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The middle case: neither conditional taken. -/
noncomputable def kernelRun0_B (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) :
    Σ' (L2 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (xi2 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_fwd_kernel i arg2 harg2 arg3 harg3 arg4 harg4 arg5 harg5 arg6 harg6 arg7 harg7) K } := by
  refine ⟨[], ?_, ?_, ?_, fun xi2 E K => ?run⟩
  case run =>
    simp only [cc0__flash_fwd_kernel_eq_skeleton]; unfold cc0__flash_fwd_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Frm

end
-- ==== Proof.KernelIdeal.RunA.lean ====
/-
  The body at a point whose key block is the first: it first resets the three running quantities (maximum to minus
  infinity, denominator and numerator to zero), whatever they held, then proceeds as at a middle point; the output
  window is left untouched.
-/
import proofs.«103140_j1494648619253_2_alg».proof.Proof.KernelIdeal.RunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The first-key-block case: the reset taken, the finalisation not. -/
noncomputable def kernelRun0_A (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) :
    Σ' (L2 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (xi2 : Vec F S4x256x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_fwd_kernel i arg2 harg2 arg3 harg3 arg4 harg4 arg5 harg5 arg6 harg6 arg7 harg7) K } := by
  refine ⟨[], ?_, ?_, ?_, fun xi2 E K => ?run⟩
  case run =>
    simp only [cc0__flash_fwd_kernel_eq_skeleton]; unfold cc0__flash_fwd_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Frm

end
-- ==== Proof.KernelIdeal.RunC.lean ====
/-
  The body at a point whose key block is the last: after the update of the three running quantities it divides the
  numerator by the denominator, row by row, and stores the quotient over the whole output block.
-/
import proofs.«103140_j1494648619253_2_alg».proof.Proof.KernelIdeal.RunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The last-key-block case: the reset not taken, the finalisation taken. -/
noncomputable def kernelRun0_C (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) :
    Σ' (L2 : List (View.Piece (Elt F) S4x256x1024 .f32)) (LS0 : List (View.Piece (Elt F) S4x256x1 .f32)) (LS1 : List (View.Piece (Elt F) S4x256x1 .f32)), { LS2 : List (View.Piece (Elt F) S4x256x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_fwd_kernel i arg2 harg2 arg3 harg3 arg4 harg4 arg5 harg5 arg6 harg6 arg7 harg7) K } := by
  refine ⟨?_, ?_, ?_, ?_, fun E K => ?run⟩
  case run =>
    simp only [cc0__flash_fwd_kernel_eq_skeleton]; unfold cc0__flash_fwd_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Frm

end
-- ==== Proof.KernelIdeal.Frame.lean ====
/-
  The frame of KernelIdeal's pipelined call, and what its result array holds afterwards.
  After each grid point the three scratch buffers hold the running maximum, denominator and numerator of the point's
  query tile over the key blocks seen so far: a recursion on the point (reset at a query tile's first key block,
  updated at every block). The output block is stored, and written back, only at a tile's last key block. The two
  input windows read one array, the converted argument: the array's points-to is split in two halves, one per window,
  for the length of the region.
-/
import proofs.«103140_j1494648619253_2_alg».proof.Proof.KernelIdeal.RunC

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What case A leaves in the output window's buffer, its pieces read back (none: the window is idle there and nothing consults this). -/
def out0_A_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) : Vec F S4x256x1024 .f32 :=
  VO0_2.read (Elt F) (VO0_2.writes (Elt F) VO0_2.junk (kernelRun0_A c i arg2 harg2 arg3 harg3 arg4 harg4 arg5 harg5 arg6 harg6 arg7 harg7 hc0 hc1 x0 x1).1)

/-- Case A's stores into scratch 0 cover it. -/
theorem scover0_A_0 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) (y : S4x256x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S4x256x1.size (by sl_kernel_rfl) y

/-- What case A leaves in scratch 0. -/
def sout0_A_0 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) : Vec F S4x256x1 .f32 :=
  VS0_0.read (Elt F) (VS0_0.writes (Elt F) VS0_0.junk (kernelRun0_A c i arg2 harg2 arg3 harg3 arg4 harg4 arg5 harg5 arg6 harg6 arg7 harg7 hc0 hc1 x0 x1).2.1)

/-- Case A's stores into scratch 1 cover it. -/
theorem scover0_A_1 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) (y : S4x256x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S4x256x1.size (by sl_kernel_rfl) y

/-- What case A leaves in scratch 1. -/
def sout0_A_1 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) : Vec F S4x256x1 .f32 :=
  VS0_1.read (Elt F) (VS0_1.writes (Elt F) VS0_1.junk (kernelRun0_A c i arg2 harg2 arg3 harg3 arg4 harg4 arg5 harg5 arg6 harg6 arg7 harg7 hc0 hc1 x0 x1).2.2.1)

/-- Case A's stores into scratch 2 cover it. -/
theorem scover0_A_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) (y : S4x256x1024.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S4x256x1024.size (by sl_kernel_rfl) y

/-- What case A leaves in scratch 2. -/
def sout0_A_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) : Vec F S4x256x1024 .f32 :=
  VS0_2.read (Elt F) (VS0_2.writes (Elt F) VS0_2.junk (kernelRun0_A c i arg2 harg2 arg3 harg3 arg4 harg4 arg5 harg5 arg6 harg6 arg7 harg7 hc0 hc1 x0 x1).2.2.2.1)

/-- What case B leaves in the output window's buffer, its pieces read back (none: the window is idle there and nothing consults this). -/
def out0_B_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1024 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1 xs2).1)

/-- Case B's stores into scratch 0 cover it. -/
theorem scover0_B_0 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1.Idx) :
    ∃ pc ∈ (kernelRun0_B c i arg2 harg2 arg3 harg3 arg4 harg4 arg5 harg5 arg6 harg6 arg7 harg7 hc0 hc1 x0 x1 xs0 xs1 xs2).2.1, y ∈ pc.1.set :=
  View.cover_of_tiledL (kernelRun0_B c i arg2 harg2 arg3 harg3 arg4 harg4 arg5 harg5 arg6 harg6 arg7 harg7 hc0 hc1 x0 x1 xs0 xs1 xs2).2.1 S4x256x1.size (by sl_kernel_rfl) y

/-- What case B leaves in scratch 0. -/
def sout0_B_0 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1 xs2).2.1)

/-- Case B's stores into scratch 1 cover it. -/
theorem scover0_B_1 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1.Idx) :
    ∃ pc ∈ (kernelRun0_B c i arg2 harg2 arg3 harg3 arg4 harg4 arg5 harg5 arg6 harg6 arg7 harg7 hc0 hc1 x0 x1 xs0 xs1 xs2).2.2.1, y ∈ pc.1.set :=
  View.cover_of_tiledL (kernelRun0_B c i arg2 harg2 arg3 harg3 arg4 harg4 arg5 harg5 arg6 harg6 arg7 harg7 hc0 hc1 x0 x1 xs0 xs1 xs2).2.2.1 S4x256x1.size (by sl_kernel_rfl) y

/-- What case B leaves in scratch 1. -/
def sout0_B_1 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1 xs2).2.2.1)

/-- Case B's stores into scratch 2 cover it. -/
theorem scover0_B_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1024.Idx) :
    ∃ pc ∈ (kernelRun0_B c i arg2 harg2 arg3 harg3 arg4 harg4 arg5 harg5 arg6 harg6 arg7 harg7 hc0 hc1 x0 x1 xs0 xs1 xs2).2.2.2.1, y ∈ pc.1.set :=
  View.cover_of_tiledL (kernelRun0_B c i arg2 harg2 arg3 harg3 arg4 harg4 arg5 harg5 arg6 harg6 arg7 harg7 hc0 hc1 x0 x1 xs0 xs1 xs2).2.2.2.1 S4x256x1024.size (by sl_kernel_rfl) y

/-- What case B leaves in scratch 2. -/
def sout0_B_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1024 .f32 :=
  VS0_2.read (Elt F) (VS0_2.writes (Elt F) VS0_2.junk (kernelRun0_B c i arg2 harg2 arg3 harg3 arg4 harg4 arg5 harg5 arg6 harg6 arg7 harg7 hc0 hc1 x0 x1 xs0 xs1 xs2).2.2.2.1)

/-- At the last key block the one store into the output window covers its block. -/
theorem cover0_C_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1024.Idx) :
    ∃ pc ∈ (kernelRun0_C c i arg2 harg2 arg3 harg3 arg4 harg4 arg5 harg5 arg6 harg6 arg7 harg7 hc0 hc1 x0 x1 xs0 xs1 xs2).1, y ∈ pc.1.set :=
  View.cover_of_tiledL (kernelRun0_C c i arg2 harg2 arg3 harg3 arg4 harg4 arg5 harg5 arg6 harg6 arg7 harg7 hc0 hc1 x0 x1 xs0 xs1 xs2).1 S4x256x1024.size (by sl_kernel_rfl) y

/-- What case C leaves in the output window's buffer, its pieces read back. -/
def out0_C_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1024 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1 xs2).1)

/-- Case C's stores into scratch 0 cover it. -/
theorem scover0_C_0 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1.Idx) :
    ∃ pc ∈ (kernelRun0_C c i arg2 harg2 arg3 harg3 arg4 harg4 arg5 harg5 arg6 harg6 arg7 harg7 hc0 hc1 x0 x1 xs0 xs1 xs2).2.1, y ∈ pc.1.set :=
  View.cover_of_tiledL (kernelRun0_C c i arg2 harg2 arg3 harg3 arg4 harg4 arg5 harg5 arg6 harg6 arg7 harg7 hc0 hc1 x0 x1 xs0 xs1 xs2).2.1 S4x256x1.size (by sl_kernel_rfl) y

/-- What case C leaves in scratch 0. -/
def sout0_C_0 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1 xs2).2.1)

/-- Case C's stores into scratch 1 cover it. -/
theorem scover0_C_1 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1.Idx) :
    ∃ pc ∈ (kernelRun0_C c i arg2 harg2 arg3 harg3 arg4 harg4 arg5 harg5 arg6 harg6 arg7 harg7 hc0 hc1 x0 x1 xs0 xs1 xs2).2.2.1, y ∈ pc.1.set :=
  View.cover_of_tiledL (kernelRun0_C c i arg2 harg2 arg3 harg3 arg4 harg4 arg5 harg5 arg6 harg6 arg7 harg7 hc0 hc1 x0 x1 xs0 xs1 xs2).2.2.1 S4x256x1.size (by sl_kernel_rfl) y

/-- What case C leaves in scratch 1. -/
def sout0_C_1 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1 xs2).2.2.1)

/-- Case C's stores into scratch 2 cover it. -/
theorem scover0_C_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) (y : S4x256x1024.Idx) :
    ∃ pc ∈ (kernelRun0_C c i arg2 harg2 arg3 harg3 arg4 harg4 arg5 harg5 arg6 harg6 arg7 harg7 hc0 hc1 x0 x1 xs0 xs1 xs2).2.2.2.1, y ∈ pc.1.set :=
  View.cover_of_tiledL (kernelRun0_C c i arg2 harg2 arg3 harg3 arg4 harg4 arg5 harg5 arg6 harg6 arg7 harg7 hc0 hc1 x0 x1 xs0 xs1 xs2).2.2.2.1 S4x256x1024.size (by sl_kernel_rfl) y

/-- What case C leaves in scratch 2. -/
def sout0_C_2 (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) : Vec F S4x256x1024 .f32 :=
  VS0_2.read (Elt F) (VS0_2.writes (Elt F) VS0_2.junk (kernelRun0_C c i arg2 harg2 arg3 harg3 arg4 harg4 arg5 harg5 arg6 harg6 arg7 harg7 hc0 hc1 x0 x1 xs0 xs1 xs2).2.2.2.1)

/-! ## What the buffers hold after each point -/

/-- After the body at position n: the output window's buffer, then the three scratch buffers. -/
def outsAt0 (c : Dev nD) : (n : ℕ) → n < cfg0.N → Vec F S4x256x1024 .f32 × Vec F S4x256x1 .f32 × Vec F S4x256x1 .f32 × Vec F S4x256x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scratch buffers at some contents: what the region is entered with. -/
def Phi0 (c : Dev nD) : sProp 𝕄 :=
  iprop((∃ d, owns (c : Thread nD τ) scM0_0 fullShare d) ∗ (∃ d, owns (c : Thread nD τ) scM0_1 fullShare d) ∗ (∃ d, owns (c : Thread nD τ) scM0_2 fullShare d))

theorem scopedRest0_owns (c : Dev nD) : (Pipeline.scopedRest spec0 c : sProp 𝕄) = Phi0 c := by
  unfold Phi0; rw [scopedRest0_eq]; simp only [scM0_0, scM0_1, scM0_2, owns_whole]; try rfl

/-- Before position n: at the start anything; afterwards each scratch buffer at what the point before left. -/
def PhiS (c : Dev nD) : (n : ℕ) → n ≤ cfg0.N → sProp 𝕄
  | 0, _ => Phi0 c
  | n + 1, hn => iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2)

theorem PhiS_zero (c : Dev nD) (n : ℕ) (h : n ≤ cfg0.N) (hz : n = 0) : PhiS m c n h = Phi0 c := by
  subst hz; rfl

theorem PhiS_succ (c : Dev nD) (n : ℕ) (hn : n < cfg0.N) :
    PhiS m c (n + 1) hn = iprop(owns (c : Thread nD τ) scM0_0 fullShare (outsAt0 m c n hn).2.1 ∗ owns (c : Thread nD τ) scM0_1 fullShare (outsAt0 m c n hn).2.2.1 ∗ owns (c : Thread nD τ) scM0_2 fullShare (outsAt0 m c n hn).2.2.2) := rfl

theorem PhiS_pos (c : Dev nD) (n : ℕ) (h : n ≤ cfg0.N) (hz : n ≠ 0) :
    PhiS m c n h = iprop(owns (c : Thread nD τ) scM0_0 fullShare (outsAt0 m c (n - 1) (by omega)).2.1 ∗ owns (c : Thread nD τ) scM0_1 fullShare (outsAt0 m c (n - 1) (by omega)).2.2.1 ∗ owns (c : Thread nD τ) scM0_2 fullShare (outsAt0 m c (n - 1) (by omega)).2.2.2) := by
  cases n with
  | zero => exact absurd rfl hz
  | succ n => rfl

/-- Named contents forgotten. -/
theorem PhiS_weaken (c : Dev nD) (n : ℕ) (h : n ≤ cfg0.N) : PhiS m c n h ⊢ Phi0 c := by
  cases n with
  | zero => exact Idealize.SL.BI.Entails.refl _
  | succ n =>
    rw [PhiS_succ]; unfold Phi0
    iintro ⟨H0, H1, H2⟩
    isplitl [H0]; · iexists _; iexact H0
    isplitl [H1]; · iexists _; iexact H1
    iexists _; iexact H2

/-! ## The proof data -/

/-- The arrays as the region finds them; after the body each input's buffer at its block, the output's at the
    recursion's first component; the two input windows hold the converted argument at one half share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the closed forms say which case the point is in; that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  have hN : t.val < 128 := lt_of_lt_of_eq t.isLt (show cfg0.N = 128 from N_0)
  by_cases h0 : t.val % 8 = 0
  · by_cases h1 : t.val % 8 = 7
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0 sout0_A_1 sout0_A_2; (try dsimp only)
      rw [PhiS_castSucc m c t]
      iintro ⟨HS, Ho, ⟨%d0, H0⟩, ⟨%d1, H1⟩, ⟨%d2, H2⟩⟩
      ihave HS' := (PhiS_weaken m c _ _) $$ HS
      unfold Phi0
      icases HS' with ⟨HS0, HS1, HS2⟩
      iapply ((kernelRun0_A c (grid0.coords t) _ _ _ _ _ _ _ _ _ _ _ _ ((hcond0_0 t).mpr h0) (fun h => h1 ((hcond0_1 t).mp h)) (iblk m c 0 t) (iblk m c 1 t)).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_A_0 c _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _)
        unfold owns; iexists _; isplitr
        swap; · iexact HS2
        ipureintro; exact View.read_writes_of_cover _ _ _ _ _ (scover0_A_2 c _ _ _ _ _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0 sout0_C_1 sout0_C_2; (try dsimp only)
      rw [PhiS_castSucc m c t, PhiS_pos m c _ _ hz]
      iintro ⟨⟨HS0, HS1, HS2⟩, Ho, ⟨%d0, H0⟩, ⟨%d1, H1⟩, ⟨%d2, H2⟩⟩
      iapply ((kernelRun0_C c (grid0.coords t) _ _ _ _ _ _ _ _ _ _ _ _ (fun h => h0 ((hcond0_0 t).mp h)) ((hcond0_1 t).mpr h1) (iblk m c 0 t) (iblk m c 1 t) _ _ _).2.2.2.2 Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, ⟨%e2, H2⟩, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_C_0 c _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _)
        unfold owns; iexists _; isplitr
        swap; · iexact HS2
        ipureintro; exact View.read_writes_of_cover _ _ _ _ _ (scover0_C_2 c _ _ _ _ _ _ _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨HS0, HS1, HS2⟩, Ho, ⟨%d0, H0⟩, ⟨%d1, H1⟩, ⟨%d2, H2⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) _ _ _).2.2.2.2 _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _)
        unfold owns; iexists _; isplitr
        swap; · iexact HS2
        ipureintro; exact View.read_writes_of_cover _ _ _ _ _ (scover0_B_2 c _ _ _ _ _ _ _ _ _ _ _ _ _ _ _ _ _ _ _ _)
      isplitl [Ho]; · iexact Ho
      isplitl [H0]; · iexact H0
      isplitl [H1]; · iexact H1
      iexists _; iexact H2

/-- The body obligation at every point. -/
theorem body_obligation (c : Dev nD) : BodyObligation (dats (F := F) m 0 c) (defs₀ (F := F)) Variants.none () Set.univ := fun t => by
  rw [bigSep_W0, bigSep_W0]
  exact sound_body m c t

end Cert.KernelIdeal.Frm

end
-- ==== Proof.KernelIdeal.Launch.lean ====
/-
  The launch of KernelIdeal's region and the run of @main.
  The converted argument is read by both input windows. Its buffer, held whole when the region is entered, is split
  into a left and a right half share, one per window; reading needs no more, and the halves rejoin when the region
  ends. The output array is a different buffer and is held whole.
-/
import proofs.«103140_j1494648619253_2_alg».proof.Proof.KernelIdeal.Frame

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁

/-- The launch element: every staging cell's owner at round 0 and a duty token per transfer the pipeline issues. -/
def u₀ : UR sig nD τ := initOf (Pipeline.cells cfgs cellOf_inj) (Pipeline.launchToks cfgs cellOf_inj)

/-- The two buffers behind the three windows' arrays, whole, are the windows' arrays at the proof data's shares. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0]
  have e : (bigSep (Finset.univ.image (Pipeline.arrRef spec0)) fun b => (((c.tc : Thread nD τ).loc b) ↦{fullShare} V m c b : sProp 𝕄))
      = iprop((((c.tc : Thread nD τ).loc main_v0) ↦{fullShare} V m c main_v0) ∗ (((c.tc : Thread nD τ).loc main_v1) ↦{fullShare} V m c main_v1)) :=
    Idealize.SL.BI.bigSep_eq_bigSepL_of_eq [main_v0, main_v1] (by decide) (by decide) _
  rw [e]
  rw [(arr_whole0 0).set_eq_univ, (arr_whole0 2).set_eq_univ]
  rw [show (dats m 0 c).share 0 = fullShare.left from rfl, show (dats m 0 c).share 1 = fullShare.right from rfl,
    show (dats m 0 c).share 2 = fullShare from rfl]
  iintro ⟨H0, H1⟩
  ihave H0' := (pointsTo_share (PosShare.mem_left_op_right fullShare)).1 $$ H0
  icases H0' with ⟨HL, HR⟩
  isplitl [HL]; · iexact HL
  isplitl [HR]; · iexact HR
  iexact H1

/-- The run's post: every window's array at what the library computes from the proof data, the argument unchanged. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c.tc : Thread nD τ).loc main_arg0) = m ((c.tc : Thread nD τ).loc main_arg0)

set_option backward.isDefEq.respectTransparency.types false in
/-- Every weakly fair execution of @main terminates, faults nowhere, and ends in QC. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [show (dats m 0 c).Φ 0 = PhiS m c 0 (Nat.zero_le _) from rfl, PhiS_zero m c 0 _ rfl, scopedRest0_owns]
      iintro ⟨-, H⟩; iexact H)
    (hout := fun c => by
      rw [show (dats m 0 c).Φ (Fin.last cfg0.N) = PhiS m c (Fin.last cfg0.N).val (Nat.le_of_lt_succ (Fin.last cfg0.N).isLt) from rfl, scopedRest0_owns]
      refine (PhiS_weaken m c _ _).trans ?_
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, ((h c).2 main_arg0 (Pipeline.mem_restRefs_of main_arg0 rfl (fun w => by fin_cases w <;> decide))).trans (V_main_arg0 m c)⟩)

/-- info: 'Cert.KernelIdeal.Frm.run_main' depends on axioms: [propext, Classical.choice, Quot.sound] -/
#guard_msgs in #print axioms run_main

/-- The frame: @main runs to the end, faults nowhere, and leaves its argument as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Frm

end
-- ==== Proof.KernelIdeal.Pieces.lean ====
/-
  What the runs found, named: in each case each scratch buffer ends at the payload of its last store, a pure term of
  the blocks and of what the buffers held before — the body's loads read whole buffers, and a load that follows a
  store of the same buffer reads the stored value back.
-/
import proofs.«103140_j1494648619253_2_alg».proof.Proof.KernelIdeal.Frame
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0, 0] : Fin 3 → Nat) = fun _ => 0 := funext fun a => by fin_cases a <;> rfl

/-! ## A middle key block -/

theorem sout0_B_0_eq (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) :
    sout0_B_0 c i arg2 harg2 arg3 harg3 arg4 harg4 arg5 harg5 arg6 harg6 arg7 harg7 hc0 hc1 x0 x1 xs0 xs1 xs2 = k0_pay2 (k0_pay9 x0 x1 xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg5.read_unread, harg6.read_unread, harg7.read_unread, View.ld_unit_zero (S := S4x256x1024) hz, View.ld_unit_zero (S := S4x512x1024) hz, View.ld_unit_zero (S := S4x256x1) hz]

theorem sout0_B_1_eq (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) :
    sout0_B_1 c i arg2 harg2 arg3 harg3 arg4 harg4 arg5 harg5 arg6 harg6 arg7 harg7 hc0 hc1 x0 x1 xs0 xs1 xs2 = k0_pay12 x0 x1 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg5.read_unread, harg6.read_unread, harg7.read_unread, View.ld_unit_zero (S := S4x256x1024) hz, View.ld_unit_zero (S := S4x512x1024) hz, View.ld_unit_zero (S := S4x256x1) hz]

theorem sout0_B_2_eq (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : ¬cond0_1 i)
    (x0 : Vec F S4x256x1024 .bf16) (x1 : Vec F S4x512x1024 .bf16) (xs0 : Vec F S4x256x1 .f32) (xs1 : Vec F S4x256x1 .f32) (xs2 : Vec F S4x256x1024 .f32) :
    sout0_B_2 c i arg2 harg2 arg3 harg3 arg4 harg4 arg5 harg5 arg6 harg6 arg7 harg7 hc0 hc1 x0 x1 xs0 xs1 xs2 = k0_pay1 (k0_pay13 x0 x1 xs0 xs2) := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg5.read_unread, harg6.read_unread, harg7.read_unread, View.ld_unit_zero (S := S4x256x1024) hz, View.ld_unit_zero (S := S4x512x1024) hz, View.ld_unit_zero (S := S4x256x1) hz]

/-! ## The first key block: each buffer is reset, then updated from the reset value -/

theorem sout0_A_0_eq (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) :
    sout0_A_0 c i arg2 harg2 arg3 harg3 arg4 harg4 arg5 harg5 arg6 harg6 arg7 harg7 hc0 hc1 x0 x1 = k0_pay2 (k0_pay9 x0 x1 (k0_pay4 (F := F))) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S4x256x1) hz]
  simp only [View.readCov_unit_zero (S := S4x256x1) _ hz, View.readCov_unit_zero (S := S4x256x1024) _ hz, View.readAt_eq_ld, harg2.read_unread, harg3.read_unread, harg5.read_unread, harg6.read_unread, harg7.read_unread, View.ld_unit_zero (S := S4x256x1024) hz, View.ld_unit_zero (S := S4x512x1024) hz, View.ld_unit_zero (S := S4x256x1) hz]

theorem sout0_A_1_eq (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) :
    sout0_A_1 c i arg2 harg2 arg3 harg3 arg4 harg4 arg5 harg5 arg6 harg6 arg7 harg7 hc0 hc1 x0 x1 = k0_pay12 x0 x1 (k0_pay4 (F := F)) (k0_pay5 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S4x256x1) hz]
  simp only [View.readCov_unit_zero (S := S4x256x1) _ hz, View.readCov_unit_zero (S := S4x256x1024) _ hz, View.readAt_eq_ld, harg2.read_unread, harg3.read_unread, harg5.read_unread, harg6.read_unread, harg7.read_unread, View.ld_unit_zero (S := S4x256x1024) hz, View.ld_unit_zero (S := S4x512x1024) hz, View.ld_unit_zero (S := S4x256x1) hz]

theorem sout0_A_2_eq (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : cond0_0 i) (hc1 : ¬cond0_1 i)
    (x0 : Vec F S4x256x1024 .bf16) (x1 : Vec F S4x512x1024 .bf16) :
    sout0_A_2 c i arg2 harg2 arg3 harg3 arg4 harg4 arg5 harg5 arg6 harg6 arg7 harg7 hc0 hc1 x0 x1 = k0_pay1 (k0_pay13 x0 x1 (k0_pay4 (F := F)) (k0_pay6 (F := F))) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S4x256x1024) hz]
  simp only [View.readCov_unit_zero (S := S4x256x1) _ hz, View.readCov_unit_zero (S := S4x256x1024) _ hz, View.readAt_eq_ld, harg2.read_unread, harg3.read_unread, harg5.read_unread, harg6.read_unread, harg7.read_unread, View.ld_unit_zero (S := S4x256x1024) hz, View.ld_unit_zero (S := S4x512x1024) hz, View.ld_unit_zero (S := S4x256x1) hz]

/-! ## The last key block: the update, then the quotient of what the update left -/

theorem sout0_C_0_eq (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) :
    sout0_C_0 c i arg2 harg2 arg3 harg3 arg4 harg4 arg5 harg5 arg6 harg6 arg7 harg7 hc0 hc1 x0 x1 xs0 xs1 xs2 = k0_pay2 (k0_pay9 x0 x1 xs0) := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readCov_unit_zero (S := S4x256x1) _ hz, View.readCov_unit_zero (S := S4x256x1024) _ hz, View.readAt_eq_ld, harg2.read_unread, harg3.read_unread, harg5.read_unread, harg6.read_unread, harg7.read_unread, View.ld_unit_zero (S := S4x256x1024) hz, View.ld_unit_zero (S := S4x512x1024) hz, View.ld_unit_zero (S := S4x256x1) hz]

theorem sout0_C_1_eq (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) :
    sout0_C_1 c i arg2 harg2 arg3 harg3 arg4 harg4 arg5 harg5 arg6 harg6 arg7 harg7 hc0 hc1 x0 x1 xs0 xs1 xs2 = k0_pay12 x0 x1 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readCov_unit_zero (S := S4x256x1) _ hz, View.readCov_unit_zero (S := S4x256x1024) _ hz, View.readAt_eq_ld, harg2.read_unread, harg3.read_unread, harg5.read_unread, harg6.read_unread, harg7.read_unread, View.ld_unit_zero (S := S4x256x1024) hz, View.ld_unit_zero (S := S4x512x1024) hz, View.ld_unit_zero (S := S4x256x1) hz]

theorem sout0_C_2_eq (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) :
    sout0_C_2 c i arg2 harg2 arg3 harg3 arg4 harg4 arg5 harg5 arg6 harg6 arg7 harg7 hc0 hc1 x0 x1 xs0 xs1 xs2 = k0_pay1 (k0_pay13 x0 x1 xs0 xs2) := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readCov_unit_zero (S := S4x256x1) _ hz, View.readCov_unit_zero (S := S4x256x1024) _ hz, View.readAt_eq_ld, harg2.read_unread, harg3.read_unread, harg5.read_unread, harg6.read_unread, harg7.read_unread, View.ld_unit_zero (S := S4x256x1024) hz, View.ld_unit_zero (S := S4x512x1024) hz, View.ld_unit_zero (S := S4x256x1) hz]

theorem out0_C_2_eq (c : Dev nD) (i : grid0.Coords) (arg2 : Memref sig .tc .vmem S4x256x1024 .bf16) (harg2 : arg2.IsWhole) (arg3 : Memref sig .tc .vmem S4x512x1024 .bf16) (harg3 : arg3.IsWhole) (arg4 : Memref sig .tc .vmem S4x256x1024 .f32) (harg4 : arg4.IsWhole) (arg5 : Memref sig .tc .vmem S4x256x1 .f32) (harg5 : arg5.IsWhole) (arg6 : Memref sig .tc .vmem S4x256x1 .f32) (harg6 : arg6.IsWhole) (arg7 : Memref sig .tc .vmem S4x256x1024 .f32) (harg7 : arg7.IsWhole) (hc0 : ¬cond0_0 i) (hc1 : cond0_1 i)
    (x0 : Vec F S4x256x1024 .bf16) (x1 : Vec F S4x512x1024 .bf16) (xs0 : Vec F S4x256x1 .f32) (xs1 : Vec F S4x256x1 .f32) (xs2 : Vec F S4x256x1024 .f32) :
    out0_C_2 c i arg2 harg2 arg3 harg3 arg4 harg4 arg5 harg5 arg6 harg6 arg7 harg7 hc0 hc1 x0 x1 xs0 xs1 xs2
      = k0_pay3 (k0_pay1 (k0_pay13 x0 x1 xs0 xs2)) (k0_pay12 x0 x1 xs0 xs1) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readCov_unit_zero (S := S4x256x1) _ hz, View.readCov_unit_zero (S := S4x256x1024) _ hz, View.readAt_eq_ld, harg2.read_unread, harg3.read_unread, harg5.read_unread, harg6.read_unread, harg7.read_unread, View.ld_unit_zero (S := S4x256x1024) hz, View.ld_unit_zero (S := S4x512x1024) hz, View.ld_unit_zero (S := S4x256x1) hz]

end Cert.KernelIdeal.Frm

end
-- ==== Proof.KernelIdeal.Blocks.lean ====
/-
  Where the kernel's blocks sit in the arrays.

  The grid is 16 query tiles by 8 key blocks; point t is query tile t / 8 and key block t % 8. The query window's
  block at t is rows 256 * (t / 8) .. 256 * (t / 8) + 255 of the argument, all batches and all features; the key
  window's block is rows 512 * (t % 8) .. 512 * (t % 8) + 511. Both read the array the host made from the argument
  by a change of float format, which at the ideal values is the argument itself. The output window's block at t is
  rows 256 * (t / 8) .. of the result, written back at the last key block of each query tile (t % 8 = 7); the sixteen
  blocks written back tile the result array: row q lies in the block of the point 8 * (q / 256) + 7.
-/
import proofs.«103140_j1494648619253_2_alg».proof.Proof.KernelIdeal.Shared
import Idealize.ShloMosaic.Lib.Pipeline.Value
import Idealize.ShloMosaic.Lib.ValueIdx
import Idealize.ShloMosaic.Lib.StableHlo.Run

noncomputable section

namespace Cert.KernelIdeal.Blk

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frm

variable (m : (ℓ : Loc nD τ sig) → Buf (Elt Ideal) ℓ)

/-! ## The block indices, decided once over the grid -/

/-- The three index maps at point t: the query and output windows sit at query tile t / 8, the key window at key
    block t % 8; none moves along the batch or the feature axis. -/
theorem idx_facts : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 3) = 0 ∧ win0_2.index t (1 : Fin 3) = t.val / 8 ∧ win0_2.index t (2 : Fin 3) = 0 :=
  (by decide +kernel : ∀ t : Fin grid0.N, _)

/-- A row of a query or output block is a row of the array. -/
theorem qrow_lt (t : Fin cfg0.N) (r : Fin 256) : 256 * (t.val / 8) + r.val < 4096 := by
  have h := t.isLt; have hN : cfg0.N = 128 := N_0; have hr := r.isLt; omega

/-- A row of a key block is a row of the array. -/
theorem krow_lt (t : Fin cfg0.N) (k : Fin 512) : 512 * (t.val % 8) + k.val < 4096 := by
  have hk := k.isLt; omega

/-! ## The array the input windows read -/

/-- The region finds, in the array both input windows read, the argument itself: the host's change of float format
    is the identity at the ideal values. -/
theorem V_main_v0 (c : Dev nD) :
    (V m c main_v0 : S4x4096x1024.Idx → EReal) = m ((c : Thread nD τ).loc main_arg0) := by
  dsimp only [V]
  simp only [hostOps0, List.flatten_cons, List.flatten_nil, List.append_nil, List.cons_append, List.nil_append]
  after_results
  rfl

/-! ## The input blocks at an index -/

/-- The query block at point t, entry (b, r, e): the argument at row 256 * (t / 8) + r. -/
theorem iblk0_apply (c : Dev nD) (t : Fin cfg0.N) (b : Fin 4) (r : Fin 256) (e : Fin 1024) :
    (iblk m c 0 t (ix3 b r e) : EReal)
      = m ((c : Thread nD τ).loc main_arg0) (ix3 b ⟨256 * (t.val / 8) + r.val, qrow_lt t r⟩ e) := by
  obtain ⟨e0, e1, e2, -⟩ := idx_facts t
  show (V m c main_v0 : S4x4096x1024.Idx → EReal) (((cfg0.win 0).blk t).view.emb (ix3 b r e)) = _
  rw [V_main_v0 m c]
  refine congrArg (m ((c : Thread nD τ).loc main_arg0)) (funext fun a => Fin.ext ?_)
  match a with
  | ⟨0, _⟩ => show win0_0.index t (0 : Fin 3) * 4 + 1 * b.val = b.val; omega
  | ⟨1, _⟩ => show win0_0.index t (1 : Fin 3) * 256 + 1 * r.val = 256 * (t.val / 8) + r.val; omega
  | ⟨2, _⟩ => show win0_0.index t (2 : Fin 3) * 1024 + 1 * e.val = e.val; omega

/-- The key block at point t, entry (b, k, e): the argument at row 512 * (t % 8) + k. -/
theorem iblk1_apply (c : Dev nD) (t : Fin cfg0.N) (b : Fin 4) (k : Fin 512) (e : Fin 1024) :
    (iblk m c 1 t (ix3 b k e) : EReal)
      = m ((c : Thread nD τ).loc main_arg0) (ix3 b ⟨512 * (t.val % 8) + k.val, krow_lt t k⟩ e) := by
  obtain ⟨-, -, -, e0, e1, e2, -⟩ := idx_facts t
  show (V m c main_v0 : S4x4096x1024.Idx → EReal) (((cfg0.win 1).blk t).view.emb (ix3 b k e)) = _
  rw [V_main_v0 m c]
  refine congrArg (m ((c : Thread nD τ).loc main_arg0)) (funext fun a => Fin.ext ?_)
  match a with
  | ⟨0, _⟩ => show win0_1.index t (0 : Fin 3) * 4 + 1 * b.val = b.val; omega
  | ⟨1, _⟩ => show win0_1.index t (1 : Fin 3) * 512 + 1 * k.val = 512 * (t.val % 8) + k.val; omega
  | ⟨2, _⟩ => show win0_1.index t (2 : Fin 3) * 1024 + 1 * e.val = e.val; omega

/-! ## The output blocks -/

/-- The output window's block at point t of any array G, entry (b, r, d): G at row 256 * (t / 8) + r. -/
theorem read_blk2 (c : Dev nD) (t : Fin cfg0.N) (G : Buf (Elt Ideal) ((cfg0.win 2).arr.view.loc (c : Thread nD τ)))
    (b : Fin 4) (r : Fin 256) (d : Fin 1024) :
    (((cfg0.win 2).blk t).view.read (Elt Ideal) G (ix3 b r d) : EReal)
      = (G : S4x4096x1024.Idx → EReal) (ix3 b ⟨256 * (t.val / 8) + r.val, qrow_lt t r⟩ d) := by
  obtain ⟨-, -, -, -, -, -, e0, e1, e2⟩ := idx_facts t
  show (G : S4x4096x1024.Idx → EReal) (((cfg0.win 2).blk t).view.emb (ix3 b r d)) = _
  refine congrArg (G : S4x4096x1024.Idx → EReal) (funext fun a => Fin.ext ?_)
  match a with
  | ⟨0, _⟩ => show win0_2.index t (0 : Fin 3) * 4 + 1 * b.val = b.val; omega
  | ⟨1, _⟩ => show win0_2.index t (1 : Fin 3) * 256 + 1 * r.val = 256 * (t.val / 8) + r.val; omega
  | ⟨2, _⟩ => show win0_2.index t (2 : Fin 3) * 1024 + 1 * d.val = d.val; omega

/-- An index of the result array is in point t's output block iff each coordinate is in the block's range. -/
theorem mem_blk2 (t : Fin cfg0.N) (i : S4x4096x1024.Idx) :
    i ∈ ((cfg0.win 2).blk t).view.set ↔ ∀ a : Fin 3, win0_2.index t a * S4x256x1024.size a ≤ (i a).val
      ∧ (i a).val < win0_2.index t a * S4x256x1024.size a + S4x256x1024.size a := by
  show i ∈ ((View.whole main_v1).slice (win0_2.rect t)).set ↔ _
  rw [View.set_slice_whole, Rect.mem_set_unit]
  exact Iff.rfl

/-- Every index of the result array lies in the block some point writes back: row q in the block of the last key
    block of query tile q / 256. -/
theorem cover2 : ∀ i : S4x4096x1024.Idx,
    ∃ t : Fin cfg0.N, (cfg0.win 2).flush t = true ∧ i ∈ ((cfg0.win 2).blk t).view.set := by
  intro i
  have h0 : (i 0).val < 4 := (i 0).isLt
  have h1 : (i 1).val < 4096 := (i 1).isLt
  have h2 : (i 2).val < 1024 := (i 2).isLt
  have hN : cfg0.N = 128 := N_0
  obtain ⟨t, ht⟩ : ∃ t : Fin cfg0.N, t.val = 8 * ((i 1).val / 256) + 7 := ⟨⟨8 * ((i 1).val / 256) + 7, by omega⟩, rfl⟩
  refine ⟨t, (flush0_2 t).mpr (by omega), ?_⟩
  rw [mem_blk2]
  obtain ⟨-, -, -, -, -, -, e0, e1, e2⟩ := idx_facts t
  intro a
  match a with
  | ⟨0, _⟩ =>
    show win0_2.index t (0 : Fin 3) * 4 ≤ (i 0).val ∧ (i 0).val < win0_2.index t (0 : Fin 3) * 4 + 4
    omega
  | ⟨1, _⟩ =>
    show win0_2.index t (1 : Fin 3) * 256 ≤ (i 1).val ∧ (i 1).val < win0_2.index t (1 : Fin 3) * 256 + 256
    omega
  | ⟨2, _⟩ =>
    show win0_2.index t (2 : Fin 3) * 1024 ≤ (i 2).val ∧ (i 2).val < win0_2.index t (2 : Fin 3) * 1024 + 1024
    omega

/-- The same, over the index type of the output window's array as the pipeline spells it on device c. -/
theorem cover2_at (c : Dev nD) : ∀ i : ((cfg0.win 2).arr.view.loc (c : Thread nD τ)).2.ty.Idx,
    ∃ t : Fin cfg0.N, (cfg0.win 2).flush t = true ∧ i ∈ ((cfg0.win 2).blk t).view.set :=
  cover2

end Cert.KernelIdeal.Blk

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«103140_j1494648619253_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.LibSoftmaxLanes.lean ====
/-
  A softmax along the LANES (the last axis) of a rank-3 vector, read AT AN INDEX at the ideal values, for a kernel that
  spells it the numerically careful way with both reductions kept (`keepdims`) and broadcast back along the lanes:

  * `laneMax3_apply`: a `multi_reduction <maximumf>` over the last axis of a rank-3 vector, at (a, b), is the fold of
    `max` from the accumulator's value over the lane coordinate;
  * `softmaxLanes3_apply`: the whole chain (maximum, cast [a, b] → [a, b, 1], broadcast to [a, b, c], subtract,
    exponentiate, sum, cast, broadcast, divide) at (a, b, j) is `SoftmaxRows.softmaxAt` of the lane row at (a, b).

  Nothing here needs the entries to be finite.
-/
import Idealize.ShloMosaic.PureOps.Ideal.Laws
import Idealize.ShloMosaic.Lib.Pipeline.Value
import Idealize.ShloMosaic.Lib.ValueIdx
import proofs.«103140_j1494648619253_2_alg».proof.Proof.LibKeepdims
import proofs.«103140_j1494648619253_2_alg».proof.Proof.LibSoftmaxRows

noncomputable section

open scoped BigOperators

namespace Idealize.ShloMosaic.SoftmaxLanes

open Idealize.ShloMosaic Idealize.ShloMosaic.ValueIdx Idealize.ShloMosaic.SoftmaxRows

/-- A maximum over the last axis of a rank-3 vector, at (a, b): the fold of `max` over the lane coordinate. -/
theorem laneMax3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.maximumf.neutral φ hφ)
    (a : Fin n0) (b : Fin n1) :
    multiReduction .maximumf [2] ⟨2, ![n0, n1]⟩ v acc h hφ hacc (ix2 a b)
      = (Finset.univ : Finset (Fin n2)).fold max (Ideal.ofBits φ acc) (fun c => v (ix3 a b c)) :=
  (Ideal.multiReduction_maximumf_single v acc h hφ hacc (ix2 a b)).trans
    (Finset.fold_congr fun c _ => congrArg v (funext fun d => Fin.ext (by
      match d with | ⟨0, _⟩ => rfl | ⟨1, _⟩ => rfl | ⟨2, _⟩ => rfl)))

/-- The keepdims softmax chain of a kernel over the lanes of `s`, at (a, b, j). -/
theorem softmaxLanes3_apply {n0 n1 n2 : Nat} (s : FVec Ideal ⟨3, ![n0, n1, n2]⟩ .f32) (accM accS : BitVec 32)
    (hr : (⟨3, ![n0, n1, n2]⟩ : Shape).Reduces [2] ⟨2, ![n0, n1]⟩) (hc : (⟨2, ![n0, n1]⟩ : Shape).ShapeCasts ⟨3, ![n0, n1, 1]⟩)
    (hb : (⟨3, ![n0, n1, 1]⟩ : Shape).Broadcasts ⟨3, ![n0, n1, n2]⟩) (hφ : FKind.Formats .f32)
    (hM : accM = FKind.maximumf.neutral .f32 hφ) (hS : accS = FKind.add.neutral .f32 hφ) (a : Fin n0) (b : Fin n1) (j : Fin n2) :
    divf (exp (subf s (broadcastTo ⟨3, ![n0, n1, n2]⟩ (shapeCast ⟨3, ![n0, n1, 1]⟩ (multiReduction .maximumf [2] ⟨2, ![n0, n1]⟩ s accM hr hφ hM) hc) hb)))
        (broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc) hb) (ix3 a b j)
      = softmaxAt (fun c => s (ix3 a b c)) (Ideal.ofBits .f32 accM) j := by
  have hmax : ∀ c : Fin n2, broadcastTo ⟨3, ![n0, n1, n2]⟩ (shapeCast ⟨3, ![n0, n1, 1]⟩ (multiReduction .maximumf [2] ⟨2, ![n0, n1]⟩ s accM hr hφ hM) hc) hb (ix3 a b c)
      = (Finset.univ : Finset (Fin n2)).fold max (Ideal.ofBits .f32 accM) (fun c => s (ix3 a b c)) := fun c =>
    (Keepdims.bcast_col3_apply _ hb a b c).trans ((Keepdims.cast_col3_apply _ hc a b 0).trans (laneMax3_apply s accM hr hφ hM a b))
  have hexp : ∀ c : Fin n2, exp (subf s (broadcastTo ⟨3, ![n0, n1, n2]⟩ (shapeCast ⟨3, ![n0, n1, 1]⟩ (multiReduction .maximumf [2] ⟨2, ![n0, n1]⟩ s accM hr hφ hM) hc) hb)) (ix3 a b c)
      = Ideal.exp (s (ix3 a b c) - (Finset.univ : Finset (Fin n2)).fold max (Ideal.ofBits .f32 accM) (fun c => s (ix3 a b c))) := fun c =>
    congrArg (fun m => Ideal.exp (s (ix3 a b c) - m)) (hmax c)
  have hsum : broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc) hb (ix3 a b j)
      = ∑ c : Fin n2, Ideal.exp (s (ix3 a b c) - (Finset.univ : Finset (Fin n2)).fold max (Ideal.ofBits .f32 accM) (fun c => s (ix3 a b c))) :=
    (Keepdims.bcast_col3_apply _ hb a b j).trans ((Keepdims.cast_col3_apply _ hc a b 0).trans
      ((Keepdims.laneSum3_apply _ accS hr hφ hS a b).trans (Finset.sum_congr rfl fun c _ => hexp c)))
  show Ideal.div _ _ = _
  unfold softmaxAt
  exact congrArg₂ Ideal.div (hexp j) hsum

end Idealize.ShloMosaic.SoftmaxLanes

end
-- ==== Proof.KernelIdeal.Payloads.lean ====
/-
  The arithmetic of one step of the blockwise attention body, read entry by entry at the exact values.

  A step holds a block of 256 query rows and a block of 512 key rows for each of the 4 batches, and per query row
  the running maximum, the running denominator and the running numerator row. Written with b the batch, r the
  query row, k the key row and d the feature:
    scores   s(b,r,k)   = ∑ e, q(b,r,e) * key(b,k,e)
    maximum  m'(b,r)    = max (m(b,r)) (the maximum of s(b,r,k) over the block's k)
    factor   alpha(b,r) = exp (m(b,r) - m'(b,r))
    weights  p(b,r,k)   = exp (s(b,r,k) - m'(b,r))
    l'(b,r)             = alpha(b,r) * l(b,r) + ∑ k, p(b,r,k)
    acc'(b,r,d)         = alpha(b,r) * acc(b,r,d) + ∑ k, p(b,r,k) * key(b,k,d)
  and at the last key block the result is acc(b,r,d) / l(b,r). The per-row quantities are kept as columns
  [4, 256, 1] and broadcast along the last axis where they meet a full block; a change of float format and a
  cast to the same shape are the identity; the contraction into a zero accumulator is the plain sum.
-/
import proofs.«103140_j1494648619253_2_alg».proof.Proof.Gen.KernelIdeal.Skeleton
import proofs.«103140_j1494648619253_2_alg».proof.Proof.LibSoftmaxLanes
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Idealize.ShloMosaic Idealize.ShloMosaic.ValueIdx Cert.KernelIdeal Cert.KernelIdeal.Gen

/-- The scores' contraction: batch axis 0, the last axis of both operands summed. -/
abbrev D1 : DotDims S4x256x1024 S4x512x1024 S4x256x512 := dot_S4x256x1024_S4x512x1024_S4x256x512_2_2_1_1_0_0
/-- The numerator's contraction: batch axis 0, the weights' last axis against the key block's row axis. -/
abbrev D2 : DotDims S4x256x512 S4x512x1024 S4x256x1024 := dot_S4x256x512_S4x512x1024_S4x256x1024_2_1_1_2_0_0

/-! ## The operand indices of the two contractions -/

theorem d1_lhs_0 (i : S4x256x512.Idx) (q : D1.contr.Idx) : (D1.lhsIdx i q 0).val = (i 0).val := by
  unfold DotDims.lhsIdx
  rw [dif_pos (show (0 : Fin S4x256x1024.rank) ∈ D1.lhsBatch by decide)]
  rfl
theorem d1_lhs_1 (i : S4x256x512.Idx) (q : D1.contr.Idx) : (D1.lhsIdx i q 1).val = (i 1).val := by
  unfold DotDims.lhsIdx
  rw [dif_neg (show ¬(1 : Fin S4x256x1024.rank) ∈ D1.lhsBatch by decide),
    dif_pos (show (1 : Fin S4x256x1024.rank) ∈ D1.lhsNonContracting by decide)]
  rfl
theorem d1_lhs_2 (i : S4x256x512.Idx) (q : D1.contr.Idx) : (D1.lhsIdx i q 2).val = (q ⟨0, by decide⟩).val :=
  D1.lhsIdx_val_of_single rfl i q
theorem d1_rhs_0 (i : S4x256x512.Idx) (q : D1.contr.Idx) : (D1.rhsIdx i q 0).val = (i 0).val := by
  unfold DotDims.rhsIdx
  rw [dif_pos (show (0 : Fin S4x512x1024.rank) ∈ D1.rhsBatch by decide)]
  rfl
theorem d1_rhs_1 (i : S4x256x512.Idx) (q : D1.contr.Idx) : (D1.rhsIdx i q 1).val = (i 2).val := by
  unfold DotDims.rhsIdx
  rw [dif_neg (show ¬(1 : Fin S4x512x1024.rank) ∈ D1.rhsBatch by decide),
    dif_pos (show (1 : Fin S4x512x1024.rank) ∈ D1.rhsNonContracting by decide)]
  rfl
theorem d1_rhs_2 (i : S4x256x512.Idx) (q : D1.contr.Idx) : (D1.rhsIdx i q 2).val = (q ⟨0, by decide⟩).val :=
  D1.rhsIdx_val_of_single rfl i q

/-- At output (b, r, k) and summed feature e the scores' contraction reads the query block at (b, r, e) -/
theorem d1_lhs (b : Fin 4) (r : Fin 256) (k : Fin 512) (e : Fin 1024) :
    D1.lhsIdx (ix3 b r k) ((contrEquiv1 D1 1024 rfl rfl).symm e) = ix3 b r e :=
  funext fun a => Fin.ext (by
    match a with
    | ⟨0, _⟩ => exact d1_lhs_0 _ _
    | ⟨1, _⟩ => exact d1_lhs_1 _ _
    | ⟨2, _⟩ => exact (d1_lhs_2 _ _).trans (contrEquiv1_symm_val D1 1024 rfl rfl e))
/-- and the key block at (b, k, e). -/
theorem d1_rhs (b : Fin 4) (r : Fin 256) (k : Fin 512) (e : Fin 1024) :
    D1.rhsIdx (ix3 b r k) ((contrEquiv1 D1 1024 rfl rfl).symm e) = ix3 b k e :=
  funext fun a => Fin.ext (by
    match a with
    | ⟨0, _⟩ => exact d1_rhs_0 _ _
    | ⟨1, _⟩ => exact d1_rhs_1 _ _
    | ⟨2, _⟩ => exact (d1_rhs_2 _ _).trans (contrEquiv1_symm_val D1 1024 rfl rfl e))

theorem d2_lhs_0 (i : S4x256x1024.Idx) (q : D2.contr.Idx) : (D2.lhsIdx i q 0).val = (i 0).val := by
  unfold DotDims.lhsIdx
  rw [dif_pos (show (0 : Fin S4x256x512.rank) ∈ D2.lhsBatch by decide)]
  rfl
theorem d2_lhs_1 (i : S4x256x1024.Idx) (q : D2.contr.Idx) : (D2.lhsIdx i q 1).val = (i 1).val := by
  unfold DotDims.lhsIdx
  rw [dif_neg (show ¬(1 : Fin S4x256x512.rank) ∈ D2.lhsBatch by decide),
    dif_pos (show (1 : Fin S4x256x512.rank) ∈ D2.lhsNonContracting by decide)]
  rfl
theorem d2_lhs_2 (i : S4x256x1024.Idx) (q : D2.contr.Idx) : (D2.lhsIdx i q 2).val = (q ⟨0, by decide⟩).val :=
  D2.lhsIdx_val_of_single rfl i q
theorem d2_rhs_0 (i : S4x256x1024.Idx) (q : D2.contr.Idx) : (D2.rhsIdx i q 0).val = (i 0).val := by
  unfold DotDims.rhsIdx
  rw [dif_pos (show (0 : Fin S4x512x1024.rank) ∈ D2.rhsBatch by decide)]
  rfl
theorem d2_rhs_1 (i : S4x256x1024.Idx) (q : D2.contr.Idx) : (D2.rhsIdx i q 1).val = (q ⟨0, by decide⟩).val :=
  D2.rhsIdx_val_of_single rfl i q
theorem d2_rhs_2 (i : S4x256x1024.Idx) (q : D2.contr.Idx) : (D2.rhsIdx i q 2).val = (i 2).val := by
  unfold DotDims.rhsIdx
  rw [dif_neg (show ¬(2 : Fin S4x512x1024.rank) ∈ D2.rhsBatch by decide),
    dif_pos (show (2 : Fin S4x512x1024.rank) ∈ D2.rhsNonContracting by decide)]
  rfl

/-- At output (b, r, d) and summed key k the numerator's contraction reads the weights at (b, r, k) -/
theorem d2_lhs (b : Fin 4) (r : Fin 256) (d : Fin 1024) (k : Fin 512) :
    D2.lhsIdx (ix3 b r d) ((contrEquiv1 D2 512 rfl rfl).symm k) = ix3 b r k :=
  funext fun a => Fin.ext (by
    match a with
    | ⟨0, _⟩ => exact d2_lhs_0 _ _
    | ⟨1, _⟩ => exact d2_lhs_1 _ _
    | ⟨2, _⟩ => exact (d2_lhs_2 _ _).trans (contrEquiv1_symm_val D2 512 rfl rfl k))
/-- and the key block at (b, k, d). -/
theorem d2_rhs (b : Fin 4) (r : Fin 256) (d : Fin 1024) (k : Fin 512) :
    D2.rhsIdx (ix3 b r d) ((contrEquiv1 D2 512 rfl rfl).symm k) = ix3 b k d :=
  funext fun a => Fin.ext (by
    match a with
    | ⟨0, _⟩ => exact d2_rhs_0 _ _
    | ⟨1, _⟩ => exact (d2_rhs_1 _ _).trans (contrEquiv1_symm_val D2 512 rfl rfl k)
    | ⟨2, _⟩ => exact d2_rhs_2 _ _)

/-! ## The two contractions into a zero accumulator, at an entry -/

/-- The scores' contraction of any two blocks: the inner product of row (b, r) with row (b, k). -/
theorem contract1_apply (x : FVec Ideal S4x256x1024 .bf16) (y : FVec Ideal S4x512x1024 .bf16)
    (b : Fin 4) (r : Fin 256) (k : Fin 512) :
    FloatOps.matmul D1 none x y (constant (F := Ideal) S4x256x512 .f32 0x00000000#32) (ix3 b r k)
      = ∑ e : Fin 1024, x (ix3 b r e) * y (ix3 b k e) := by
  refine (Ideal.matmul_constant_zero_apply D1 none x y (ix3 b r k)).trans ?_
  rw [← Equiv.sum_comp (contrEquiv1 D1 1024 rfl rfl).symm]
  exact Finset.sum_congr rfl fun e _ =>
    congrArg₂ (· * ·) (congrArg x (d1_lhs b r k e)) (congrArg y (d1_rhs b r k e))

/-- The numerator's contraction of any weights with any key block: the weighted sum of column d over the keys. -/
theorem contract2_apply (p : FVec Ideal S4x256x512 .bf16) (y : FVec Ideal S4x512x1024 .bf16)
    (b : Fin 4) (r : Fin 256) (d : Fin 1024) :
    FloatOps.matmul D2 none p y (constant (F := Ideal) S4x256x1024 .f32 0x00000000#32) (ix3 b r d)
      = ∑ k : Fin 512, p (ix3 b r k) * y (ix3 b k d) := by
  refine (Ideal.matmul_constant_zero_apply D2 none p y (ix3 b r d)).trans ?_
  rw [← Equiv.sum_comp (contrEquiv1 D2 512 rfl rfl).symm]
  exact Finset.sum_congr rfl fun k _ =>
    congrArg₂ (· * ·) (congrArg p (d2_lhs b r d k)) (congrArg y (d2_rhs b r d k))

/-- The pattern of minus infinity denotes the bottom of the extended reals. -/
theorem ofBits_neg_inf : Ideal.ofBits .f32 0xFF800000#32 = ⊥ := by simp [Ideal.ofBits, Ideal.ieee]

/-! ## The body's values at an entry -/

variable (v3 : Vec Ideal S4x256x1024 .bf16) (v5 : Vec Ideal S4x512x1024 .bf16) (v8 : Vec Ideal S4x256x1 .f32)
  (v17 : Vec Ideal S4x256x1 .f32) (v27 : Vec Ideal S4x256x1024 .f32)

/-- The key block is used as loaded. -/
theorem keys_eq : k0_pay7 (F := Ideal) v5 = v5 := shapeCast_self v5 _

/-- The block scores: the inner product of query row (b, r) with key row (b, k). -/
theorem scores_apply (b : Fin 4) (r : Fin 256) (k : Fin 512) :
    k0_pay8 (F := Ideal) v3 v5 (ix3 b r k) = ∑ e : Fin 1024, v3 (ix3 b r e) * v5 (ix3 b k e) := by
  have h3 : shapeCast S4x256x1024 v3 shapeCasts_S4x256x1024_S4x256x1024 = v3 := shapeCast_self v3 _
  show FloatOps.matmul D1 none (shapeCast S4x256x1024 v3 shapeCasts_S4x256x1024_S4x256x1024) (k0_pay7 (F := Ideal) v5)
    (constant (F := Ideal) S4x256x512 .f32 0x00000000#32) (ix3 b r k) = _
  rw [h3, keys_eq]
  exact contract1_apply v3 v5 b r k

/-- The new running maximum: the old one against the maximum of the block's scores. -/
theorem newmax_apply (b : Fin 4) (r : Fin 256) :
    k0_pay9 (F := Ideal) v3 v5 v8 (ix3 b r 0)
      = max (v8 (ix3 b r 0)) (Finset.univ.fold max ⊥ (fun k : Fin 512 => k0_pay8 (F := Ideal) v3 v5 (ix3 b r k))) := by
  show max (v8 (ix3 b r 0)) (shapeCast S4x256x1 (multiReduction (F := Ideal) .maximumf [2] S4x256 (k0_pay8 (F := Ideal) v3 v5) 0xFF800000#32
    reduces_S4x256x512_S4x256 (.inl rfl) rfl) shapeCasts_S4x256_S4x256x1 (ix3 b r 0)) = _
  refine congrArg (max (v8 (ix3 b r 0))) ?_
  refine (Keepdims.cast_col3_apply _ shapeCasts_S4x256_S4x256x1 b r 0).trans ?_
  refine (SoftmaxLanes.laneMax3_apply (k0_pay8 (F := Ideal) v3 v5) 0xFF800000#32 reduces_S4x256x512_S4x256 (.inl rfl) rfl b r).trans ?_
  exact congrArg (fun z => (Finset.univ : Finset (Fin 512)).fold max z (fun k => k0_pay8 (F := Ideal) v3 v5 (ix3 b r k))) ofBits_neg_inf

/-- The rescaling factor: exp of the old maximum minus the new one. -/
theorem alpha_apply (b : Fin 4) (r : Fin 256) :
    k0_pay10 (F := Ideal) v3 v5 v8 (ix3 b r 0)
      = Ideal.exp (v8 (ix3 b r 0) - k0_pay9 (F := Ideal) v3 v5 v8 (ix3 b r 0)) := rfl

/-- The weights: exp of the score minus the new maximum of its row. -/
theorem weights_apply (b : Fin 4) (r : Fin 256) (k : Fin 512) :
    k0_pay11 (F := Ideal) v3 v5 v8 (ix3 b r k)
      = Ideal.exp (k0_pay8 (F := Ideal) v3 v5 (ix3 b r k) - k0_pay9 (F := Ideal) v3 v5 v8 (ix3 b r 0)) := by
  show Ideal.exp (k0_pay8 (F := Ideal) v3 v5 (ix3 b r k)
    - broadcastTo S4x256x512 (k0_pay9 (F := Ideal) v3 v5 v8) broadcasts_S4x256x1_S4x256x512 (ix3 b r k)) = _
  exact congrArg (fun z => Ideal.exp (k0_pay8 (F := Ideal) v3 v5 (ix3 b r k) - z))
    (Keepdims.bcast_col3_apply (k0_pay9 (F := Ideal) v3 v5 v8) broadcasts_S4x256x1_S4x256x512 b r k)

/-- The new denominator: the old one rescaled plus the sum of the block's weights. -/
theorem newden_apply (b : Fin 4) (r : Fin 256) :
    k0_pay12 (F := Ideal) v3 v5 v8 v17 (ix3 b r 0)
      = k0_pay10 (F := Ideal) v3 v5 v8 (ix3 b r 0) * v17 (ix3 b r 0)
        + ∑ k : Fin 512, k0_pay11 (F := Ideal) v3 v5 v8 (ix3 b r k) := by
  have hc : ∀ (w : FVec Ideal S4x256x1 .f32), shapeCast S4x256x1 w shapeCasts_S4x256x1_S4x256x1 = w := fun w => shapeCast_self w _
  show shapeCast S4x256x1 (addf (mulf (k0_pay10 (F := Ideal) v3 v5 v8) v17)
    (shapeCast S4x256x1 (multiReduction (F := Ideal) .add [2] S4x256 (k0_pay11 (F := Ideal) v3 v5 v8) 0x00000000#32
      reduces_S4x256x512_S4x256 (.inl rfl) rfl) shapeCasts_S4x256_S4x256x1)) shapeCasts_S4x256x1_S4x256x1 (ix3 b r 0) = _
  rw [hc]
  show k0_pay10 (F := Ideal) v3 v5 v8 (ix3 b r 0) * v17 (ix3 b r 0)
    + shapeCast S4x256x1 (multiReduction (F := Ideal) .add [2] S4x256 (k0_pay11 (F := Ideal) v3 v5 v8) 0x00000000#32
      reduces_S4x256x512_S4x256 (.inl rfl) rfl) shapeCasts_S4x256_S4x256x1 (ix3 b r 0) = _
  refine congrArg (k0_pay10 (F := Ideal) v3 v5 v8 (ix3 b r 0) * v17 (ix3 b r 0) + ·) ?_
  refine (Keepdims.cast_col3_apply _ shapeCasts_S4x256_S4x256x1 b r 0).trans ?_
  exact Keepdims.laneSum3_apply (k0_pay11 (F := Ideal) v3 v5 v8) 0x00000000#32 reduces_S4x256x512_S4x256 (.inl rfl) rfl b r

/-- The new numerator: the old one rescaled plus the weighted sum of the key block's column d. -/
theorem newnum_apply (b : Fin 4) (r : Fin 256) (d : Fin 1024) :
    k0_pay13 (F := Ideal) v3 v5 v8 v27 (ix3 b r d)
      = k0_pay10 (F := Ideal) v3 v5 v8 (ix3 b r 0) * v27 (ix3 b r d)
        + ∑ k : Fin 512, k0_pay11 (F := Ideal) v3 v5 v8 (ix3 b r k) * v5 (ix3 b k d) := by
  show broadcastTo S4x256x1024 (k0_pay10 (F := Ideal) v3 v5 v8) broadcasts_S4x256x1_S4x256x1024 (ix3 b r d) * v27 (ix3 b r d)
    + FloatOps.matmul D2 none (truncf .bf16 (k0_pay11 (F := Ideal) v3 v5 v8) bitsLt_bf16_f32) (k0_pay7 (F := Ideal) v5)
      (constant (F := Ideal) S4x256x1024 .f32 0x00000000#32) (ix3 b r d) = _
  rw [keys_eq]
  exact congrArg₂ (· + ·)
    (congrArg (· * v27 (ix3 b r d)) (Keepdims.bcast_col3_apply (k0_pay10 (F := Ideal) v3 v5 v8) broadcasts_S4x256x1_S4x256x1024 b r d))
    (contract2_apply (truncf .bf16 (k0_pay11 (F := Ideal) v3 v5 v8) bitsLt_bf16_f32) v5 b r d)

/-- The result at the last key block: the numerator over its row's denominator. -/
theorem quotient_apply (v40 : Vec Ideal S4x256x1024 .f32) (v41 : Vec Ideal S4x256x1 .f32) (b : Fin 4) (r : Fin 256) (d : Fin 1024) :
    k0_pay3 (F := Ideal) v40 v41 (ix3 b r d) = Ideal.div (v40 (ix3 b r d)) (v41 (ix3 b r 0)) := by
  show Ideal.div (v40 (ix3 b r d)) (broadcastTo S4x256x1024 v41 broadcasts_S4x256x1_S4x256x1024 (ix3 b r d)) = _
  exact congrArg (Ideal.div (v40 (ix3 b r d))) (Keepdims.bcast_col3_apply v41 broadcasts_S4x256x1_S4x256x1024 b r d)

/-! ## The resets at the first key block, and the two stores of a value as it is -/

/-- The running maximum starts at minus infinity. -/
theorem reset_max_apply (i : S4x256x1.Idx) : k0_pay4 (F := Ideal) i = ⊥ := by
  show shapeCast S4x256x1 (broadcast S4x256x1 (Ideal.ofBits .f32 0xFF800000#32)) shapeCasts_S4x256x1_S4x256x1 i = _
  rw [shapeCast_self]
  exact ofBits_neg_inf

/-- The running denominator starts at zero. -/
theorem reset_den_apply (i : S4x256x1.Idx) : k0_pay5 (F := Ideal) i = 0 := by
  show shapeCast S4x256x1 (broadcast S4x256x1 (Ideal.ofBits .f32 0x00000000#32)) shapeCasts_S4x256x1_S4x256x1 i = _
  rw [shapeCast_self]
  exact Ideal.ofBits_zero_f32

/-- The running numerator starts at zero. -/
theorem reset_num_apply (i : S4x256x1024.Idx) : k0_pay6 (F := Ideal) i = 0 := by
  show shapeCast S4x256x1024 (broadcast S4x256x1024 (Ideal.ofBits .f32 0x00000000#32)) shapeCasts_S4x256x1024_S4x256x1024 i = _
  rw [shapeCast_self]
  exact Ideal.ofBits_zero_f32

/-- The numerator is stored as computed. -/
theorem store_num_eq {F : FTy → Type} [FloatOps F] (v30 : FVec F S4x256x1024 .f32) : k0_pay1 v30 = v30 := shapeCast_self v30 _

/-- The maximum is stored as computed. -/
theorem store_max_eq {F : FTy → Type} [FloatOps F] (v11 : FVec F S4x256x1 .f32) : k0_pay2 v11 = v11 := shapeCast_self v11 _

end Cert.KernelIdeal.Pay

end
-- ==== Proof.OnlineSoftmax.lean ====
/-
  The online softmax, on the extended reals.

  A row of attention is the exp-weighted mean of the value rows v k over the keys k, with weights
  exp (s k) for the scores s k. Processed block by block, one keeps for the keys P seen so far a
  reference point m, the denominator l = ∑ k ∈ P, exp (s k - m) and the numerator row
  acc d = ∑ k ∈ P, exp (s k - m) * v k d. Moving the reference point from m to any real mn multiplies
  both by exp (m - mn), because exp (m - mn) * exp (s k - m) = exp (s k - mn); nothing about mn being
  a maximum is used, only that it is a real number. At the end the common factor exp (-m) cancels
  between numerator and denominator.

  Before the first block the reference point is minus infinity and both sums are zero; whatever
  exp (⊥ - mn) is, it multiplies zeros, and x * 0 = 0 for every extended real x.
-/
import Idealize.ShloMosaic.PureOps.Ideal

noncomputable section

open scoped BigOperators

namespace Cert.OnlineSoftmax

open Idealize.ShloMosaic

/-- The coercion of a finite real sum is the sum of the coercions. -/
theorem coe_sum {ι : Type*} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- exp of a difference of two reals, taken in the extended reals, is the real exponential. -/
theorem exp_coe_sub (a b : ℝ) : Ideal.exp ((a : EReal) - (b : EReal)) = ((Real.exp (a - b) : ℝ) : EReal) := by
  rw [← EReal.coe_sub, Ideal.exp_coe]

/-- Moving the reference point: exp (m - mn) * ∑ exp (s k - m) * w k = ∑ exp (s k - mn) * w k. -/
theorem rescale_sum {κ : Type*} (S : Finset κ) (s w : κ → ℝ) (m mn : ℝ) :
    Real.exp (m - mn) * ∑ k ∈ S, Real.exp (s k - m) * w k = ∑ k ∈ S, Real.exp (s k - mn) * w k := by
  rw [Finset.mul_sum]
  refine Finset.sum_congr rfl fun k _ => ?_
  rw [← mul_assoc, ← Real.exp_add]
  congr 2
  ring

/-- The same without weights. -/
theorem rescale_sum_one {κ : Type*} (S : Finset κ) (s : κ → ℝ) (m mn : ℝ) :
    Real.exp (m - mn) * ∑ k ∈ S, Real.exp (s k - m) = ∑ k ∈ S, Real.exp (s k - mn) := by
  simpa using rescale_sum S s (fun _ => 1) m mn

/-- Subtracting any real M from every score leaves the weighted mean unchanged. -/
theorem shift_cancel {κ : Type*} [Fintype κ] (s w : κ → ℝ) (M : ℝ) :
    (∑ k, Real.exp (s k - M) * w k) / (∑ k, Real.exp (s k - M))
      = (∑ k, Real.exp (s k) * w k) / (∑ k, Real.exp (s k)) := by
  have h1 : ∀ k, Real.exp (s k - M) = Real.exp (-M) * Real.exp (s k) := by
    intro k; rw [← Real.exp_add]; congr 1; ring
  simp_rw [h1, mul_assoc, ← Finset.mul_sum]
  exact mul_div_mul_left _ _ (Real.exp_pos _).ne'

variable {κ δ : Type*} [DecidableEq κ]

/-- The state after the keys P: either nothing has been seen and both sums are zero, or the reference
    point is a real mr and the sums are those of exp (s k - mr) over P. -/
def Inv (s : κ → ℝ) (v : κ → δ → ℝ) (P : Finset κ) (m l : EReal) (acc : δ → EReal) : Prop :=
  (P = ∅ ∧ l = 0 ∧ ∀ d, acc d = 0) ∨
  (∃ mr : ℝ, m = (mr : EReal) ∧ l = ((∑ k ∈ P, Real.exp (s k - mr) : ℝ) : EReal) ∧
    ∀ d, acc d = ((∑ k ∈ P, Real.exp (s k - mr) * v k d : ℝ) : EReal))

variable {s : κ → ℝ} {v : κ → δ → ℝ} {P : Finset κ} {m l : EReal} {acc : δ → EReal}

/-- The start: no key seen, reference point minus infinity, both sums zero. -/
theorem Inv.init : Inv s v ∅ ⊥ 0 (fun _ => 0) :=
  Or.inl ⟨rfl, rfl, fun _ => rfl⟩

/-- One block B of new keys, with any real mn as the new reference point. -/
theorem Inv.step (h : Inv s v P m l acc) (B : Finset κ) (hd : Disjoint P B) (_hB : B.Nonempty) (mn : ℝ) :
    Inv s v (P ∪ B) (mn : EReal)
      (Ideal.exp (m - (mn : EReal)) * l + ∑ k ∈ B, Ideal.exp ((s k : EReal) - (mn : EReal)))
      (fun d => Ideal.exp (m - (mn : EReal)) * acc d
        + ∑ k ∈ B, Ideal.exp ((s k : EReal) - (mn : EReal)) * ((v k d : ℝ) : EReal)) := by
  have hB1 : (∑ k ∈ B, Ideal.exp ((s k : EReal) - (mn : EReal)))
      = ((∑ k ∈ B, Real.exp (s k - mn) : ℝ) : EReal) := by
    rw [coe_sum]; exact Finset.sum_congr rfl fun k _ => exp_coe_sub _ _
  have hB2 : ∀ d, (∑ k ∈ B, Ideal.exp ((s k : EReal) - (mn : EReal)) * ((v k d : ℝ) : EReal))
      = ((∑ k ∈ B, Real.exp (s k - mn) * v k d : ℝ) : EReal) := by
    intro d
    rw [coe_sum]
    exact Finset.sum_congr rfl fun k _ => by rw [exp_coe_sub, EReal.coe_mul]
  refine Or.inr ⟨mn, rfl, ?_, fun d => ?_⟩
  · rcases h with ⟨hP, hl, _⟩ | ⟨mr, hm, hl, _⟩
    · rw [hl, mul_zero, zero_add, hP, Finset.empty_union, hB1]
    · rw [hm, hl, exp_coe_sub, ← EReal.coe_mul, rescale_sum_one, hB1, ← EReal.coe_add,
        Finset.sum_union hd]
  · rcases h with ⟨hP, _, ha⟩ | ⟨mr, hm, _, ha⟩
    · show Ideal.exp (m - (mn : EReal)) * acc d + _ = _
      rw [ha d, mul_zero, zero_add, hP, Finset.empty_union, hB2]
    · show Ideal.exp (m - (mn : EReal)) * acc d + _ = _
      rw [hm, ha d, exp_coe_sub, ← EReal.coe_mul, rescale_sum, hB2, ← EReal.coe_add,
        Finset.sum_union hd]

/-- After all the keys: numerator over denominator is the exp-weighted mean. -/
theorem Inv.final [Fintype κ] [Nonempty κ] (h : Inv s v Finset.univ m l acc) (d : δ) :
    Ideal.div (acc d) l = (((∑ k, Real.exp (s k) * v k d) / (∑ k, Real.exp (s k)) : ℝ) : EReal) := by
  rcases h with ⟨hP, _, _⟩ | ⟨mr, _, hl, ha⟩
  · exact absurd hP Finset.univ_nonempty.ne_empty
  · have hpos : (0 : ℝ) < ∑ k, Real.exp (s k - mr) :=
      Finset.sum_pos (fun k _ => Real.exp_pos _) Finset.univ_nonempty
    rw [ha d, hl, Ideal.div_coe hpos.ne', ← EReal.coe_mul, mul_one_div, shift_cancel]

/-- The reference's form: the weights are normalised first, then summed against v. -/
theorem softmax_shift [Fintype κ] [Nonempty κ] (s : κ → ℝ) (v : κ → δ → ℝ) (M : ℝ) (d : δ) :
    (∑ k, (Real.exp (s k - M) / ∑ j, Real.exp (s j - M)) * v k d)
      = (∑ k, Real.exp (s k) * v k d) / (∑ k, Real.exp (s k)) := by
  rw [← shift_cancel s (fun k => v k d) M, Finset.sum_div]
  exact Finset.sum_congr rfl fun k _ => div_mul_eq_mul_div _ _ _

/-- The maximum of minus infinity or a real with a real is a real. -/
theorem max_real_of (m : EReal) (hm : m = ⊥ ∨ ∃ r : ℝ, m = (r : EReal)) (b : ℝ) :
    ∃ r : ℝ, max m (b : EReal) = (r : EReal) := by
  rcases hm with rfl | ⟨r, rfl⟩
  · exact ⟨b, max_eq_right bot_le⟩
  · exact ⟨max r b, (EReal.coe_strictMono.monotone.map_max).symm⟩

/-- A running maximum of finitely many reals started from minus infinity is minus infinity or real. -/
theorem fold_max_bot_or_real (S : Finset κ) (f : κ → ℝ) :
    S.fold max (⊥ : EReal) (fun k => (f k : EReal)) = ⊥
      ∨ ∃ r : ℝ, S.fold max (⊥ : EReal) (fun k => (f k : EReal)) = (r : EReal) := by
  induction S using Finset.induction_on with
  | empty => exact Or.inl Finset.fold_empty
  | insert a S ha ih =>
    rw [Finset.fold_insert ha, max_comm]
    exact Or.inr (max_real_of _ ih (f a))

/-- Over a nonempty set it is real. -/
theorem fold_max_real {S : Finset κ} (hS : S.Nonempty) (f : κ → ℝ) :
    ∃ r : ℝ, S.fold max (⊥ : EReal) (fun k => (f k : EReal)) = (r : EReal) := by
  obtain ⟨a, ha⟩ := hS
  rw [← Finset.insert_erase ha, Finset.fold_insert (Finset.notMem_erase a S), max_comm]
  exact max_real_of _ (fold_max_bot_or_real _ f) (f a)

end Cert.OnlineSoftmax

end
-- ==== Proof.AttnStep.lean ====
/-
  One key block's update of a query row's running maximum, denominator and numerator, as a step of the
  online-softmax invariant over the 4096 keys cut into 8 blocks of 512.

  Block j holds the keys 512·j … 512·j + 511; after blocks 0 … j the keys seen are those below 512·(j + 1).
  The block's scores and value rows are real numbers, so the new running maximum — the old one (minus infinity
  before the first block, a real afterwards) against the block's largest score — is a real number, which is all the
  invariant's step asks of it.
-/
import proofs.«103140_j1494648619253_2_alg».proof.Proof.OnlineSoftmax

noncomputable section

open scoped BigOperators

namespace Cert.AttnStep

open Idealize.ShloMosaic

/-- Key number r of block j. -/
def keyOf (j : ℕ) (hj : j < 8) (r : Fin 512) : Fin 4096 := ⟨512 * j + r.val, by have := r.isLt; omega⟩

theorem keyOf_injective (j : ℕ) (hj : j < 8) : Function.Injective (keyOf j hj) := fun r r' h => by
  have := congrArg Fin.val h
  simp only [keyOf] at this
  exact Fin.ext (by omega)

/-- The keys of block j. -/
def blockKeys (j : ℕ) (hj : j < 8) : Finset (Fin 4096) := Finset.univ.image (keyOf j hj)

/-- The keys of the blocks before block j. -/
def seenBefore (j : ℕ) : Finset (Fin 4096) := Finset.univ.filter fun k => k.val < 512 * j

theorem mem_blockKeys (j : ℕ) (hj : j < 8) (k : Fin 4096) : k ∈ blockKeys j hj ↔ 512 * j ≤ k.val ∧ k.val < 512 * (j + 1) := by
  unfold blockKeys
  rw [Finset.mem_image]
  constructor
  · rintro ⟨r, -, rfl⟩
    have := r.isLt
    simp only [keyOf]; omega
  · rintro ⟨h1, h2⟩
    exact ⟨⟨k.val - 512 * j, by omega⟩, Finset.mem_univ _, Fin.ext (by simp only [keyOf]; omega)⟩

theorem seenBefore_zero : seenBefore 0 = ∅ := by
  unfold seenBefore
  exact Finset.filter_eq_empty_iff.mpr fun k _ => by omega

theorem seenBefore_succ (j : ℕ) (hj : j < 8) : seenBefore (j + 1) = seenBefore j ∪ blockKeys j hj := by
  ext k
  rw [Finset.mem_union, mem_blockKeys]
  unfold seenBefore
  simp only [Finset.mem_filter, Finset.mem_univ, true_and]
  omega

theorem seenBefore_disjoint (j : ℕ) (hj : j < 8) : Disjoint (seenBefore j) (blockKeys j hj) := by
  rw [Finset.disjoint_left]
  intro k hk hk'
  rw [mem_blockKeys] at hk'
  unfold seenBefore at hk
  simp only [Finset.mem_filter, Finset.mem_univ, true_and] at hk
  omega

theorem seenBefore_eight : seenBefore 8 = Finset.univ := by
  unfold seenBefore
  exact Finset.filter_true_of_mem fun k _ => by have := k.isLt; omega

theorem blockKeys_nonempty (j : ℕ) (hj : j < 8) : (blockKeys j hj).Nonempty :=
  ⟨keyOf j hj 0, Finset.mem_image_of_mem _ (Finset.mem_univ _)⟩

/-- One block's update preserves the invariant, and the new running maximum is a real number. -/
theorem row_step {δ : Type} (s : Fin 4096 → ℝ) (v : Fin 4096 → δ → ℝ) (j : ℕ) (hj : j < 8)
    (mp lp : EReal) (accp : δ → EReal) (hInv : Cert.OnlineSoftmax.Inv s v (seenBefore j) mp lp accp)
    (hm : mp = ⊥ ∨ ∃ r : ℝ, mp = (r : EReal))
    (sb : Fin 512 → EReal) (hsb : ∀ r, sb r = ((s (keyOf j hj r) : ℝ) : EReal))
    (vb : Fin 512 → δ → EReal) (hvb : ∀ r d, vb r d = ((v (keyOf j hj r) d : ℝ) : EReal))
    (mn : EReal) (hmn : mn = max mp ((Finset.univ : Finset (Fin 512)).fold max ⊥ sb)) :
    Cert.OnlineSoftmax.Inv s v (seenBefore (j + 1)) mn
        (Ideal.exp (mp - mn) * lp + ∑ r : Fin 512, Ideal.exp (sb r - mn))
        (fun d => Ideal.exp (mp - mn) * accp d + ∑ r : Fin 512, Ideal.exp (sb r - mn) * vb r d)
      ∧ ∃ r : ℝ, mn = (r : EReal) := by
  have hsb' : sb = fun r => ((s (keyOf j hj r) : ℝ) : EReal) := funext hsb
  obtain ⟨bm, hbm⟩ := Cert.OnlineSoftmax.fold_max_real (S := (Finset.univ : Finset (Fin 512))) Finset.univ_nonempty (fun r => s (keyOf j hj r))
  obtain ⟨mr, hmr⟩ := Cert.OnlineSoftmax.max_real_of mp hm bm
  have hmn' : mn = (mr : EReal) := by rw [hmn, hsb', hbm, hmr]
  refine ⟨?_, mr, hmn'⟩
  have hstep := Cert.OnlineSoftmax.Inv.step hInv (blockKeys j hj) (seenBefore_disjoint j hj) (blockKeys_nonempty j hj) mr
  rw [seenBefore_succ j hj, hmn']
  have e1 : ∑ k ∈ blockKeys j hj, Ideal.exp (((s k : ℝ) : EReal) - (mr : EReal)) = ∑ r : Fin 512, Ideal.exp (sb r - (mr : EReal)) := by
    unfold blockKeys
    rw [Finset.sum_image (fun a _ b _ h => keyOf_injective j hj h)]
    exact Finset.sum_congr rfl fun r _ => by rw [hsb]
  have e2 : ∀ d, ∑ k ∈ blockKeys j hj, Ideal.exp (((s k : ℝ) : EReal) - (mr : EReal)) * ((v k d : ℝ) : EReal)
      = ∑ r : Fin 512, Ideal.exp (sb r - (mr : EReal)) * vb r d := fun d => by
    unfold blockKeys
    rw [Finset.sum_image (fun a _ b _ h => keyOf_injective j hj h)]
    exact Finset.sum_congr rfl fun r _ => by rw [hsb, hvb]
  rw [e1] at hstep
  simp only [e2] at hstep
  exact hstep

end Cert.AttnStep

end
-- ==== Proof.KernelIdeal.RowUpdate.lean ====
/-
  One query row through one step of the blockwise attention body, as a step of the online-softmax invariant.

  Fix a batch b and a query row r of the block. If the block's scores of that row are the real numbers s k and the
  key block's rows are the real rows v k, for k running over the keys of block j, then what the body stores for the
  row — the new running maximum, the new denominator and the new numerator row — is exactly the invariant's update
  by that block: the keys seen grow from those below 512·j to those below 512·(j + 1), and the new maximum is a
  real number again. At the first block the running values are the resets (minus infinity, zero, zero), which is
  the invariant's start. After the last block the stored quotient is the exp-weighted mean over all keys.
-/
import proofs.«103140_j1494648619253_2_alg».proof.Proof.KernelIdeal.Payloads
import proofs.«103140_j1494648619253_2_alg».proof.Proof.AttnStep

noncomputable section

open scoped BigOperators

namespace Cert.KernelIdeal.Row

open Idealize.ShloMosaic Idealize.ShloMosaic.ValueIdx Cert.KernelIdeal Cert.KernelIdeal.Gen Cert.KernelIdeal.Pay

/-! ## Sums of products of real numbers, inside the extended reals -/

/-- A finite sum of products of coerced reals is the coercion of the real sum of products. -/
theorem coe_sum_mul {ι : Type*} (S : Finset ι) (f g : ι → ℝ) :
    (∑ k ∈ S, ((f k : ℝ) : EReal) * ((g k : ℝ) : EReal)) = ((∑ k ∈ S, f k * g k : ℝ) : EReal) := by
  rw [Cert.OnlineSoftmax.coe_sum]
  exact Finset.sum_congr rfl fun k _ => (EReal.coe_mul _ _).symm

/-- The inner product of two real rows of 1024 features. -/
theorem coe_inner (xq xk : Fin 1024 → ℝ) :
    (∑ e : Fin 1024, ((xq e : ℝ) : EReal) * ((xk e : ℝ) : EReal)) = ((∑ e, xq e * xk e : ℝ) : EReal) :=
  coe_sum_mul Finset.univ xq xk

/-! ## The row's stored values in terms of the block's scores and value rows -/

variable (x0 : Vec Ideal S4x256x1024 .bf16) (x1 : Vec Ideal S4x512x1024 .bf16)
  (mp lp : Vec Ideal S4x256x1 .f32) (accp : Vec Ideal S4x256x1024 .f32) (b : Fin 4) (r : Fin 256)

/-- Whatever the row's block scores sb and the key block's rows vb are called: the new maximum, denominator and
    numerator of row (b, r) written over them. -/
theorem row_values (sb : Fin 512 → EReal) (vb : Fin 512 → Fin 1024 → EReal)
    (hsb : ∀ k : Fin 512, k0_pay8 (F := Ideal) x0 x1 (ix3 b r k) = sb k)
    (hvb : ∀ (k : Fin 512) (d : Fin 1024), x1 (ix3 b k d) = vb k d) :
    k0_pay9 (F := Ideal) x0 x1 mp (ix3 b r 0) = max (mp (ix3 b r 0)) ((Finset.univ : Finset (Fin 512)).fold max ⊥ sb)
    ∧ k0_pay12 (F := Ideal) x0 x1 mp lp (ix3 b r 0)
        = Ideal.exp (mp (ix3 b r 0) - k0_pay9 (F := Ideal) x0 x1 mp (ix3 b r 0)) * lp (ix3 b r 0)
          + ∑ k : Fin 512, Ideal.exp (sb k - k0_pay9 (F := Ideal) x0 x1 mp (ix3 b r 0))
    ∧ ∀ d : Fin 1024, k0_pay13 (F := Ideal) x0 x1 mp accp (ix3 b r d)
        = Ideal.exp (mp (ix3 b r 0) - k0_pay9 (F := Ideal) x0 x1 mp (ix3 b r 0)) * accp (ix3 b r d)
          + ∑ k : Fin 512, Ideal.exp (sb k - k0_pay9 (F := Ideal) x0 x1 mp (ix3 b r 0)) * vb k d := by
  have hw : ∀ k : Fin 512, k0_pay11 (F := Ideal) x0 x1 mp (ix3 b r k)
      = Ideal.exp (sb k - k0_pay9 (F := Ideal) x0 x1 mp (ix3 b r 0)) := fun k =>
    (weights_apply x0 x1 mp b r k).trans
      (congrArg (fun z => Ideal.exp (z - k0_pay9 (F := Ideal) x0 x1 mp (ix3 b r 0))) (hsb k))
  refine ⟨?_, ?_, fun d => ?_⟩
  · exact (newmax_apply x0 x1 mp b r).trans
      (congrArg (fun f : Fin 512 → EReal => max (mp (ix3 b r 0)) ((Finset.univ : Finset (Fin 512)).fold max ⊥ f)) (funext hsb))
  · refine (newden_apply x0 x1 mp lp b r).trans ?_
    exact congrArg₂ (· + ·) (congrArg (· * lp (ix3 b r 0)) (alpha_apply x0 x1 mp b r))
      (Finset.sum_congr rfl fun k _ => hw k)
  · refine (newnum_apply x0 x1 mp accp b r d).trans ?_
    exact congrArg₂ (· + ·) (congrArg (· * accp (ix3 b r d)) (alpha_apply x0 x1 mp b r))
      (Finset.sum_congr rfl fun k _ => congrArg₂ (· * ·) (hw k) (hvb k d))

variable (s : Fin 4096 → ℝ) (v : Fin 4096 → Fin 1024 → ℝ)

/-- Key block j's update of row (b, r): the invariant moves from the keys below 512·j to those below 512·(j + 1),
    and the stored maximum is a real number. -/
theorem update (j : ℕ) (hj : j < 8)
    (hs : ∀ k : Fin 512, (∑ e : Fin 1024, x0 (ix3 b r e) * x1 (ix3 b k e)) = ((s (Cert.AttnStep.keyOf j hj k) : ℝ) : EReal))
    (hv : ∀ (k : Fin 512) (d : Fin 1024), x1 (ix3 b k d) = ((v (Cert.AttnStep.keyOf j hj k) d : ℝ) : EReal))
    (hInv : Cert.OnlineSoftmax.Inv s v (Cert.AttnStep.seenBefore j) (mp (ix3 b r 0)) (lp (ix3 b r 0)) (fun d => accp (ix3 b r d)))
    (hm : mp (ix3 b r 0) = ⊥ ∨ ∃ x : ℝ, mp (ix3 b r 0) = (x : EReal)) :
    Cert.OnlineSoftmax.Inv s v (Cert.AttnStep.seenBefore (j + 1))
        (k0_pay2 (k0_pay9 (F := Ideal) x0 x1 mp) (ix3 b r 0))
        (k0_pay12 (F := Ideal) x0 x1 mp lp (ix3 b r 0))
        (fun d => k0_pay1 (k0_pay13 (F := Ideal) x0 x1 mp accp) (ix3 b r d))
      ∧ ∃ x : ℝ, k0_pay2 (k0_pay9 (F := Ideal) x0 x1 mp) (ix3 b r 0) = (x : EReal) := by
  obtain ⟨hmax, hden, hnum⟩ := row_values x0 x1 mp lp accp b r
    (fun k => ((s (Cert.AttnStep.keyOf j hj k) : ℝ) : EReal))
    (fun k d => ((v (Cert.AttnStep.keyOf j hj k) d : ℝ) : EReal))
    (fun k => (scores_apply x0 x1 b r k).trans (hs k)) hv
  have key := Cert.AttnStep.row_step s v j hj (mp (ix3 b r 0)) (lp (ix3 b r 0)) (fun d => accp (ix3 b r d)) hInv hm
    (fun k => ((s (Cert.AttnStep.keyOf j hj k) : ℝ) : EReal)) (fun _ => rfl)
    (fun k d => ((v (Cert.AttnStep.keyOf j hj k) d : ℝ) : EReal)) (fun _ _ => rfl)
    (k0_pay9 (F := Ideal) x0 x1 mp (ix3 b r 0)) hmax
  have e2 : k0_pay2 (k0_pay9 (F := Ideal) x0 x1 mp) (ix3 b r 0) = k0_pay9 (F := Ideal) x0 x1 mp (ix3 b r 0) :=
    congrFun (store_max_eq _) _
  have e3 : (fun d => k0_pay1 (k0_pay13 (F := Ideal) x0 x1 mp accp) (ix3 b r d))
      = fun d => Ideal.exp (mp (ix3 b r 0) - k0_pay9 (F := Ideal) x0 x1 mp (ix3 b r 0)) * accp (ix3 b r d)
          + ∑ k : Fin 512, Ideal.exp (((s (Cert.AttnStep.keyOf j hj k) : ℝ) : EReal) - k0_pay9 (F := Ideal) x0 x1 mp (ix3 b r 0))
              * ((v (Cert.AttnStep.keyOf j hj k) d : ℝ) : EReal) :=
    funext fun d => (congrFun (store_num_eq _) _).trans (hnum d)
  rw [e2, hden, e3]
  exact key

/-- The first key block's update of row (b, r), from the resets: minus infinity, zero and zero are the invariant's
    start over no keys. -/
theorem update_first (hj : 0 < 8)
    (hs : ∀ k : Fin 512, (∑ e : Fin 1024, x0 (ix3 b r e) * x1 (ix3 b k e)) = ((s (Cert.AttnStep.keyOf 0 hj k) : ℝ) : EReal))
    (hv : ∀ (k : Fin 512) (d : Fin 1024), x1 (ix3 b k d) = ((v (Cert.AttnStep.keyOf 0 hj k) d : ℝ) : EReal)) :
    Cert.OnlineSoftmax.Inv s v (Cert.AttnStep.seenBefore (0 + 1))
        (k0_pay2 (k0_pay9 (F := Ideal) x0 x1 (k0_pay4 (F := Ideal))) (ix3 b r 0))
        (k0_pay12 (F := Ideal) x0 x1 (k0_pay4 (F := Ideal)) (k0_pay5 (F := Ideal)) (ix3 b r 0))
        (fun d => k0_pay1 (k0_pay13 (F := Ideal) x0 x1 (k0_pay4 (F := Ideal)) (k0_pay6 (F := Ideal))) (ix3 b r d))
      ∧ ∃ x : ℝ, k0_pay2 (k0_pay9 (F := Ideal) x0 x1 (k0_pay4 (F := Ideal))) (ix3 b r 0) = (x : EReal) := by
  refine update x0 x1 (k0_pay4 (F := Ideal)) (k0_pay5 (F := Ideal)) (k0_pay6 (F := Ideal)) b r s v 0 hj hs hv ?_
    (Or.inl (reset_max_apply _))
  have e : (fun d : Fin 1024 => k0_pay6 (F := Ideal) (ix3 b r d)) = fun _ => (0 : EReal) :=
    funext fun d => reset_num_apply _
  rw [Cert.AttnStep.seenBefore_zero, reset_max_apply, reset_den_apply, e]
  exact Cert.OnlineSoftmax.Inv.init

/-- After the last key block: the stored quotient of row (b, r) at feature d is the exp-weighted mean of
    column d over all 4096 keys. -/
theorem finish (lN : Vec Ideal S4x256x1 .f32) (accN : Vec Ideal S4x256x1024 .f32) (mN : EReal)
    (h : Cert.OnlineSoftmax.Inv s v Finset.univ mN (lN (ix3 b r 0)) (fun d => accN (ix3 b r d))) (d : Fin 1024) :
    k0_pay3 (F := Ideal) accN lN (ix3 b r d)
      = (((∑ k, Real.exp (s k) * v k d) / ∑ k, Real.exp (s k) : ℝ) : EReal) :=
  (quotient_apply accN lN b r d).trans (Cert.OnlineSoftmax.Inv.final h d)

end Cert.KernelIdeal.Row

end
-- ==== Proof.AttnSpec.lean ====
/-
  Unscaled self-attention as one function of the argument array, index by index.

  For an array x of shape [4, 4096, 1024] whose entries are real numbers, batch b, query row q and feature c:
    score b q k = ∑ over features e of x[b, q, e] · x[b, k, e]
    attn  b q c = (∑ over keys k of exp (score b q k) · x[b, k, c]) / (∑ over keys k of exp (score b q k)).
  A softmax taken after subtracting any real number M from a row's scores has these same weights: the factor
  exp (-M) cancels between numerator and denominator. Both programs subtract a running or a whole-row maximum;
  neither choice changes the value.
-/
import Idealize.ShloMosaic.PureOps.Ideal
import Idealize.ShloMosaic.Lib.ValueIdx

noncomputable section

open scoped BigOperators

namespace Cert.AttnSpec

open Idealize.ShloMosaic Idealize.ShloMosaic.ValueIdx

/-- The argument's shape. -/
abbrev SX : Shape := ⟨3, ![4, 4096, 1024]⟩

/-- The real number an entry of the argument denotes (the entry itself, when it is finite). -/
def xr (a : SX.Idx → EReal) (b : Fin 4) (s : Fin 4096) (c : Fin 1024) : ℝ := (a (ix3 b s c)).toReal

/-- The score of key row k against query row q: the inner product of the two rows. -/
def score (a : SX.Idx → EReal) (b : Fin 4) (q k : Fin 4096) : ℝ := ∑ e : Fin 1024, xr a b q e * xr a b k e

/-- The attention output at (b, q, c): the exp-weighted mean of column c over the keys. -/
def attn (a : SX.Idx → EReal) (b : Fin 4) (q : Fin 4096) (c : Fin 1024) : ℝ :=
  (∑ k : Fin 4096, Real.exp (score a b q k) * xr a b k c) / (∑ k : Fin 4096, Real.exp (score a b q k))

/-- The whole result array. -/
def G (a : SX.Idx → EReal) : SX.Idx → EReal := fun i => ((attn a (i 0) (i 1) (i 2) : ℝ) : EReal)

theorem G_apply (a : SX.Idx → EReal) (b : Fin 4) (q : Fin 4096) (c : Fin 1024) :
    G a (ix3 b q c) = ((attn a b q c : ℝ) : EReal) := rfl

/-- Where every entry is real, an entry is the coercion of the real it denotes. -/
theorem coe_xr (a : SX.Idx → EReal) (hfin : ∀ i, ∃ v : ℝ, a i = v) (b : Fin 4) (s : Fin 4096) (c : Fin 1024) :
    ((xr a b s c : ℝ) : EReal) = a (ix3 b s c) := by
  obtain ⟨v, hv⟩ := hfin (ix3 b s c)
  unfold xr; rw [hv]; rfl

end Cert.AttnSpec

end
-- ==== Proof.KernelIdeal.Value.lean ====
/-
  What the kernel's result array holds at the ideal values: the attention specification of the argument.

  By induction on the grid point, for every batch b and row r of the point's query tile: after the point, the three
  scratch buffers at (b, r) hold the online-softmax state of global query row 256·(t / 8) + r over the keys of the
  key blocks 0 … t % 8 — the reset at a tile's first key block starts it, every block extends it by that block's 512
  keys. At a tile's last key block all 4096 keys are in, and the stored quotient is the specification's value; the
  sixteen tiles' blocks cover the result array.
-/
import proofs.«103140_j1494648619253_2_alg».proof.Proof.KernelIdeal.Launch
import proofs.«103140_j1494648619253_2_alg».proof.Proof.KernelIdeal.Pieces
import proofs.«103140_j1494648619253_2_alg».proof.Proof.KernelIdeal.Blocks
import proofs.«103140_j1494648619253_2_alg».proof.Proof.KernelIdeal.RowUpdate
import proofs.«103140_j1494648619253_2_alg».proof.Proof.AttnSpec

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Frm
open Cert.AttnSpec Cert.AttnStep

variable (m : (ℓ : Loc nD τ sig) → Buf (Elt Ideal) ℓ)

/-- The argument array on core c. -/
abbrev arg (c : Dev nD) : SX.Idx → EReal := m ((c : Thread nD τ).loc main_arg0)

/-- The global query row of row r of point t's query tile. -/
def qrow (t : Fin cfg0.N) (r : Fin 256) : Fin 4096 := ⟨256 * (t.val / 8) + r.val, Cert.KernelIdeal.Blk.qrow_lt t r⟩

theorem kblk_lt (t : Fin cfg0.N) : t.val % 8 < 8 := Nat.mod_lt _ (by decide)

variable (hfin : ∀ (c : Dev nD) (i : SX.Idx), ∃ v : ℝ, arg m c i = (v : EReal))

/-- The point's query block and key block, as vectors of extended reals. -/
abbrev qblk (c : Dev nD) (t : Fin cfg0.N) : Vec Ideal S4x256x1024 .bf16 := iblk m c 0 t
abbrev kblk (c : Dev nD) (t : Fin cfg0.N) : Vec Ideal S4x512x1024 .bf16 := iblk m c 1 t

theorem qblk_apply (c : Dev nD) (t : Fin cfg0.N) (b : Fin 4) (r : Fin 256) (e : Fin 1024) :
    qblk m c t (ix3 b r e) = arg m c (ix3 b (qrow t r) e) := Cert.KernelIdeal.Blk.iblk0_apply m c t b r e

theorem kblk_apply (c : Dev nD) (t : Fin cfg0.N) (b : Fin 4) (k : Fin 512) (e : Fin 1024) :
    kblk m c t (ix3 b k e) = arg m c (ix3 b (keyOf (t.val % 8) (kblk_lt t) k) e) := Cert.KernelIdeal.Blk.iblk1_apply m c t b k e

include hfin in
/-- The point's block scores are the specification's scores of the global rows. -/
theorem scores_of (c : Dev nD) (t : Fin cfg0.N) (b : Fin 4) (r : Fin 256) (k : Fin 512) :
    (∑ e : Fin 1024, qblk m c t (ix3 b r e) * kblk m c t (ix3 b k e))
      = ((score (arg m c) b (qrow t r) (keyOf (t.val % 8) (kblk_lt t) k) : ℝ) : EReal) := by
  unfold score
  rw [← Cert.KernelIdeal.Row.coe_inner]
  refine Finset.sum_congr rfl fun e _ => ?_
  rw [qblk_apply, kblk_apply, coe_xr (arg m c) (hfin c), coe_xr (arg m c) (hfin c)]

include hfin in
/-- The point's key block holds the specification's value rows. -/
theorem values_of (c : Dev nD) (t : Fin cfg0.N) (b : Fin 4) (k : Fin 512) (d : Fin 1024) :
    kblk m c t (ix3 b k d) = ((xr (arg m c) b (keyOf (t.val % 8) (kblk_lt t) k) d : ℝ) : EReal) := by
  rw [kblk_apply, coe_xr (arg m c) (hfin c)]

/-- The state of row (b, r) after point t. -/
def RowInv (c : Dev nD) (t : Fin cfg0.N) (b : Fin 4) (r : Fin 256) : Prop :=
  Cert.OnlineSoftmax.Inv (score (arg m c) b (qrow t r)) (xr (arg m c) b) (seenBefore (t.val % 8 + 1))
      ((outsAt0 m c t.val t.isLt).2.1 (ix3 b r 0)) ((outsAt0 m c t.val t.isLt).2.2.1 (ix3 b r 0))
      (fun d => (outsAt0 m c t.val t.isLt).2.2.2 (ix3 b r d))
    ∧ ∃ x : ℝ, (outsAt0 m c t.val t.isLt).2.1 (ix3 b r 0) = (x : EReal)

include hfin in
theorem rowInv (c : Dev nD) (t : Fin cfg0.N) (b : Fin 4) (r : Fin 256) : RowInv m c t b r := by
  induction hn : t.val using Nat.strong_induction_on generalizing t with
  | _ n ih =>
    subst hn
    unfold RowInv
    by_cases h0 : t.val % 8 = 0
    · have h1 : ¬ t.val % 8 = 7 := by omega
      have hsb : seenBefore (t.val % 8 + 1) = seenBefore (0 + 1) := by rw [h0]
      rw [hsb, outsAt0_A m c t h0 h1]
      dsimp only
      rw [sout0_A_0_eq, sout0_A_1_eq, sout0_A_2_eq]
      have hk : ∀ k : Fin 512, keyOf (t.val % 8) (kblk_lt t) k = keyOf 0 (by decide) k := fun k => by
        apply Fin.ext; show 512 * (t.val % 8) + k.val = 512 * 0 + k.val; omega
      exact Cert.KernelIdeal.Row.update_first (iblk m c 0 t) (iblk m c 1 t) b r _ _ (by decide)
        (fun k => by rw [← hk k]; exact scores_of m hfin c t b r k)
        (fun k d => by rw [← hk k]; exact values_of m hfin c t b k d)
    · have hpos : t.val ≠ 0 := fun e => h0 (by rw [e])
      have hlt : t.val - 1 < t.val := by omega
      have IH := ih (t.val - 1) hlt ⟨t.val - 1, Nat.lt_of_le_of_lt (Nat.sub_le _ _) t.isLt⟩ rfl
      unfold RowInv at IH
      have hq : qrow ⟨t.val - 1, Nat.lt_of_le_of_lt (Nat.sub_le _ _) t.isLt⟩ r = qrow t r := by
        unfold qrow; apply Fin.ext; show 256 * ((t.val - 1) / 8) + r.val = 256 * (t.val / 8) + r.val; omega
      have hj : (t.val - 1) % 8 + 1 = t.val % 8 := by omega
      rw [hq] at IH
      dsimp only at IH
      rw [hj] at IH
      obtain ⟨hInv, hreal⟩ := IH
      have upd := Cert.KernelIdeal.Row.update (iblk m c 0 t) (iblk m c 1 t)
        (outsAt0 m c (t.val - 1) (Nat.lt_of_le_of_lt (Nat.sub_le _ _) t.isLt)).2.1
        (outsAt0 m c (t.val - 1) (Nat.lt_of_le_of_lt (Nat.sub_le _ _) t.isLt)).2.2.1
        (outsAt0 m c (t.val - 1) (Nat.lt_of_le_of_lt (Nat.sub_le _ _) t.isLt)).2.2.2
        b r (score (arg m c) b (qrow t r)) (xr (arg m c) b) (t.val % 8) (kblk_lt t)
        (scores_of m hfin c t b r) (values_of m hfin c t b) hInv (Or.inr hreal)
      by_cases h1 : t.val % 8 = 7
      · rw [outsAt0_C m c t h0 h1]
        dsimp only
        rw [sout0_C_0_eq, sout0_C_1_eq, sout0_C_2_eq]
        exact upd
      · rw [outsAt0_B m c t h0 h1]
        dsimp only
        rw [sout0_B_0_eq, sout0_B_1_eq, sout0_B_2_eq]
        exact upd

include hfin in
/-- What a tile's last point writes back is its block of the specification. -/
theorem flushed_eq (c : Dev nD) (t : Fin cfg0.N) (hf : (cfg0.win 2).flush t = true) :
    (dats m 0 c).flushed 2 t = ((cfg0.win 2).blk t).view.read (Elt Ideal) (G (arg m c)) := by
  have h7 : t.val % 8 = 7 := (flush0_2 t).mp hf
  have h0 : ¬ t.val % 8 = 0 := by omega
  show (cfg0.win 2).cut (grid0.coords t) ((dats m 0 c).after 2 t) = _
  rw [after0_2, outsAt0_C m c t h0 h7]
  dsimp only
  rw [out0_C_2_eq]
  funext y
  obtain ⟨b, r, d, rfl⟩ : ∃ (b : Fin 4) (r : Fin 256) (d : Fin 1024), y = ix3 b r d := ⟨y 0, y 1, y 2, eq_ix3 y⟩
  rw [Cert.KernelIdeal.Blk.read_blk2 c t]
  -- the row's state after this point, with every key in
  have hR := rowInv m hfin c t b r
  unfold RowInv at hR
  have hsb : seenBefore (t.val % 8 + 1) = Finset.univ := by rw [h7]; exact seenBefore_eight
  rw [hsb, outsAt0_C m c t h0 h7] at hR
  dsimp only at hR
  rw [sout0_C_0_eq, sout0_C_1_eq, sout0_C_2_eq] at hR
  exact (Cert.KernelIdeal.Row.finish b r (score (arg m c) b (qrow t r)) (xr (arg m c) b)
    (Gen.k0_pay12 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1)
    (Gen.k0_pay1 (Gen.k0_pay13 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.2)) _ hR.1 d).trans
    (G_apply (arg m c) b (qrow t r) d).symm

include hfin in
/-- The result array after the run is the specification of the argument. -/
theorem final (c : Dev nD) : (dats m 0 c).arrAt 2 cfg0.N = G (arg m c) :=
  (dats m 0 c).arrAt_eq_of_cover 2 (G (arg m c)) (fun t hf => flushed_eq m hfin c t hf) (Cert.KernelIdeal.Blk.cover2_at c)

end Cert.KernelIdeal.Val

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.RefAlgebra.lean ====
/-
  Softmax weights over the extended reals, where every score and every value is a real number.

  For real scores s k, a real shift M and real values v k over a nonempty finite set of keys:
    the weight of key k is exp (s k - M) divided by the sum L of exp (s j - M) over the keys j,
    L is a positive real, so the division is the real one, and
    the sum over k of (exp (s k - M) / L) * v k equals (sum of exp (s k) * v k) / (sum of exp (s k)):
  the common factor exp (-M) cancels between numerator and denominator. The maximum of finitely many reals
  taken from minus infinity is again a real, which is what makes the shift M a real number.
-/
import Idealize.ShloMosaic.PureOps.Ideal.Laws

noncomputable section

open scoped BigOperators

namespace Cert.RefAlgebra

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (x y : ℝ) : ((max x y : ℝ) : EReal) = max (x : EReal) (y : EReal) :=
  EReal.coe_strictMono.monotone.map_max

/-- The fold of max from a real number over finitely many reals is a real. -/
theorem fold_max_coe_real {ι : Type*} (s : Finset ι) (f : ι → ℝ) (b : ℝ) :
    ∃ M : ℝ, s.fold max (b : EReal) (fun k => (f k : EReal)) = (M : EReal) := by
  classical
  induction s using Finset.induction_on with
  | empty => exact ⟨b, Finset.fold_empty⟩
  | insert a s ha ih =>
    obtain ⟨M, hM⟩ := ih
    exact ⟨max (f a) M, by rw [Finset.fold_insert ha, hM, coe_max]⟩

/-- The fold of max from minus infinity over a NONEMPTY finite family of reals is a real. -/
theorem fold_max_bot_real {ι : Type*} (s : Finset ι) (hs : s.Nonempty) (f : ι → ℝ) :
    ∃ M : ℝ, s.fold max (⊥ : EReal) (fun k => (f k : EReal)) = (M : EReal) := by
  classical
  induction hs using Finset.Nonempty.cons_induction with
  | singleton a => exact ⟨f a, by rw [Finset.fold_singleton]; exact max_bot_right _⟩
  | cons a s ha hs ih =>
    obtain ⟨M, hM⟩ := ih
    exact ⟨max (f a) M, by rw [Finset.fold_cons, hM, coe_max]⟩

/-- The quotient of two real coercions by a nonzero denominator is the coercion of the real quotient. -/
theorem div_coe_coe (x y : ℝ) (hy : y ≠ 0) : Ideal.div (x : EReal) (y : EReal) = ((x / y : ℝ) : EReal) := by
  rw [Ideal.div_coe hy, ← EReal.coe_mul, mul_one_div]

/-- The exponential of a difference of two real coercions. -/
theorem exp_coe_sub (x y : ℝ) : Ideal.exp ((x : EReal) - (y : EReal)) = ((Real.exp (x - y) : ℝ) : EReal) := rfl

/-- Softmax weights do not depend on the shift: over the reals. -/
theorem softmax_shift {ι : Type*} (s : Finset ι) (hs : s.Nonempty) (sc v : ι → ℝ) (M : ℝ) :
    ∑ k ∈ s, Real.exp (sc k - M) / (∑ j ∈ s, Real.exp (sc j - M)) * v k
      = (∑ k ∈ s, Real.exp (sc k) * v k) / (∑ k ∈ s, Real.exp (sc k)) := by
  have hE : Real.exp M ≠ 0 := (Real.exp_pos M).ne'
  have hS : (∑ j ∈ s, Real.exp (sc j)) ≠ 0 := (Finset.sum_pos (fun j _ => Real.exp_pos (sc j)) hs).ne'
  have hL : ∑ j ∈ s, Real.exp (sc j - M) = (∑ j ∈ s, Real.exp (sc j)) / Real.exp M := by
    rw [Finset.sum_div]; exact Finset.sum_congr rfl fun j _ => Real.exp_sub _ _
  rw [hL, Finset.sum_div s (fun k => Real.exp (sc k) * v k)]
  apply Finset.sum_congr rfl
  intro k _
  rw [Real.exp_sub]
  field_simp

/-- One row of softmax attention at the ideal values: real scores, a real shift, real values, a nonempty set of
    keys; the sum of the exponentials is taken from zero. -/
theorem softmax_row_coe {ι : Type*} (s : Finset ι) (hs : s.Nonempty) (sc v : ι → ℝ) (M : ℝ) :
    ∑ k ∈ s, Ideal.div (Ideal.exp ((sc k : EReal) - (M : EReal)))
        ((0 : EReal) + ∑ j ∈ s, Ideal.exp ((sc j : EReal) - (M : EReal))) * (v k : EReal)
      = (((∑ k ∈ s, Real.exp (sc k) * v k) / (∑ k ∈ s, Real.exp (sc k)) : ℝ) : EReal) := by
  have hL : (∑ j ∈ s, Real.exp (sc j - M)) ≠ 0 := (Finset.sum_pos (fun j _ => Real.exp_pos (sc j - M)) hs).ne'
  have hden : (0 : EReal) + ∑ j ∈ s, Ideal.exp ((sc j : EReal) - (M : EReal))
      = ((∑ j ∈ s, Real.exp (sc j - M) : ℝ) : EReal) := by
    rw [zero_add, coe_sum]; exact Finset.sum_congr rfl fun j _ => exp_coe_sub _ _
  rw [hden, ← softmax_shift s hs sc v M,
    coe_sum s (fun k => Real.exp (sc k - M) / (∑ j ∈ s, Real.exp (sc j - M)) * v k)]
  apply Finset.sum_congr rfl
  intro k _
  rw [exp_coe_sub, div_coe_coe _ _ hL, ← EReal.coe_mul]

end Cert.RefAlgebra

end
-- ==== Proof.RefAttn.lean ====
/-
  The reference computes softmax attention: stated index by index at the ideal values.

  The reference forms the score array x · xᵀ (batched over the first axis), takes each row's maximum M from minus
  infinity, subtracts it, exponentiates, divides by the row's sum L of the exponentials, and multiplies the weights
  into x. Where every entry of x is a real number, a score is a real inner product, M is the largest of 4096 reals
  and so a real, each exponential is a positive real, L is a positive real, and the row's result is
    the sum over keys k of (exp (s k - M) / L) * x[b, k, c],
  which is the specification's (sum of exp (s k) * x[b, k, c]) / (sum of exp (s k)): the factor exp (-M) cancels.
-/
import proofs.«103140_j1494648619253_2_alg».proof.Proof.Gen.ReferenceIdeal.Read
import proofs.«103140_j1494648619253_2_alg».proof.Proof.LibHostReads
import proofs.«103140_j1494648619253_2_alg».proof.Proof.AttnSpec
import proofs.«103140_j1494648619253_2_alg».proof.Proof.RefAlgebra

noncomputable section

open scoped BigOperators

namespace Cert.RefAttn

open Idealize.ShloMosaic Idealize.ShloMosaic.ValueIdx Cert.ReferenceIdeal Cert.ReferenceIdeal.Gen Cert.ReferenceIdeal.Read
  Cert.AttnSpec

/-! ## The host's maximum over the last axis, read at an index -/

/-- The f32 bit pattern 0xFF800000 denotes minus infinity. -/
theorem neg_inf_pattern_f32 : Ideal.ofBits .f32 0xFF800000#32 = ⊥ := by simp [Ideal.ofBits, Ideal.ieee]

/-- The reduced index (i, j) with coordinate k put back on the last axis is (i, j, k). -/
theorem lift_ix3 {a b c : Nat} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- The host's reduce with a maximum body over the last axis of a rank-3 array, at (i, j): the fold of max, from the
    initial value, over the entries (i, j, k). -/
theorem hostMax3_last_apply {a b c : Nat} (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (x : FVec Ideal ⟨3, ![a, b, c]⟩ .f32) (init : FVec Ideal ⟨0, ![]⟩ .f32) (i : Fin a) (j : Fin b) :
    Host.reduce FloatOps.maximumf x init h' hu (ix2 i j)
      = (Finset.univ : Finset (Fin c)).fold max (init (Shape.Idx.first hu)) (fun k => x (ix3 i j k)) := by
  rw [Host.reduce_eq_fold_single FloatOps.maximumf x _ h' h hu]
  have hf : (x ∘ h.lift (ix2 i j)) = fun k : Fin c => x (ix3 i j k) := funext fun k => congrArg x (lift_ix3 h i j k)
  exact congrArg (fun f => Finset.fold max (init (Shape.Idx.first hu)) f (Finset.univ : Finset (Fin c))) hf

/-! ## The reference's stages at an index, for an argument with real entries -/

section Stages

/-- The score array: entry (b, q, k) is the real inner product of rows q and k of batch b. -/
theorem scores_at (a : FVec Ideal S4x4096x1024 .f32) (hfin : ∀ i, ∃ v : ℝ, a i = v)
    (b : Fin 4) (q k : Fin 4096) :
    val_main_v0 (F := Ideal) a (ix3 b q k) = ((score a b q k : ℝ) : EReal) := by
  rw [val_main_v0_apply]
  unfold score
  rw [RefAlgebra.coe_sum]
  apply Finset.sum_congr rfl
  intro e _
  have hl : lidx_main_v0 (ix3 b q k) e = ix3 b q e :=
    funext fun d => Fin.ext (by match d with | ⟨0, _⟩ => rfl | ⟨1, _⟩ => rfl | ⟨2, _⟩ => rfl)
  have hr : ridx_main_v0 (ix3 b q k) e = ix3 b k e :=
    funext fun d => Fin.ext (by match d with | ⟨0, _⟩ => rfl | ⟨1, _⟩ => rfl | ⟨2, _⟩ => rfl)
  rw [hl, hr, EReal.coe_mul, coe_xr a hfin, coe_xr a hfin]

/-- The row maximum, before the second maximum with minus infinity: the fold of max from minus infinity over the
    row's scores. -/
theorem rowfold_at (a : FVec Ideal S4x4096x1024 .f32) (hfin : ∀ i, ∃ v : ℝ, a i = v)
    (b : Fin 4) (q : Fin 4096) :
    val_main_v1 (F := Ideal) a (ix2 b q)
      = (Finset.univ : Finset (Fin 4096)).fold max (⊥ : EReal) (fun k => ((score a b q k : ℝ) : EReal)) := by
  unfold val_main_v1
  refine (hostMax3_last_apply _ (by decide) _ _ _ b q).trans ?_
  rw [val_main_cst_apply, Ideal.ofBits_def, neg_inf_pattern_f32]
  exact congrArg (fun f => Finset.fold max (⊥ : EReal) f (Finset.univ : Finset (Fin 4096)))
    (funext fun k => scores_at a hfin b q k)

/-- The row maximum is a real number. -/
theorem rowmax_real (a : FVec Ideal S4x4096x1024 .f32) (hfin : ∀ i, ∃ v : ℝ, a i = v)
    (b : Fin 4) (q : Fin 4096) : ∃ M : ℝ, val_main_v3 (F := Ideal) a (ix2 b q) = (M : EReal) := by
  obtain ⟨M, hM⟩ := RefAlgebra.fold_max_bot_real (Finset.univ : Finset (Fin 4096)) Finset.univ_nonempty
    (fun k => score a b q k)
  refine ⟨M, ?_⟩
  rw [val_main_v3_apply, val_main_v2_apply, val_main_cst_0_apply, rowfold_at a hfin, hM, Ideal.ofBits_def,
    neg_inf_pattern_f32, Ideal.maximumf_def]
  exact max_bot_left _

/-- The subtracted array holds, all along row (b, q), that row's maximum. -/
theorem shift_at (a : FVec Ideal S4x4096x1024 .f32) (b : Fin 4) (q k : Fin 4096) :
    val_main_v5 (F := Ideal) a (ix3 b q k) = val_main_v3 (F := Ideal) a (ix2 b q) := by
  rw [val_main_v5_apply, val_main_v4_apply]
  exact congrArg (val_main_v3 (F := Ideal) a)
    (funext fun d => Fin.ext (by match d with | ⟨0, _⟩ => rfl | ⟨1, _⟩ => rfl))

/-- The exponentials: entry (b, q, k) is exp (score - M), M the row's maximum. -/
theorem weight_at (a : FVec Ideal S4x4096x1024 .f32) (hfin : ∀ i, ∃ v : ℝ, a i = v)
    (b : Fin 4) (q k : Fin 4096) (M : ℝ) (hM : val_main_v3 (F := Ideal) a (ix2 b q) = (M : EReal)) :
    val_main_v7 (F := Ideal) a (ix3 b q k) = Ideal.exp (((score a b q k : ℝ) : EReal) - (M : EReal)) := by
  rw [val_main_v7_apply, val_main_v6_apply, shift_at, hM, scores_at a hfin, Ideal.hostUnary_exp_def, Ideal.subf_def]

/-- The divisor: all along row (b, q), zero plus the sum of the row's exponentials. -/
theorem denom_at (a : FVec Ideal S4x4096x1024 .f32) (hfin : ∀ i, ∃ v : ℝ, a i = v)
    (b : Fin 4) (q k : Fin 4096) (M : ℝ) (hM : val_main_v3 (F := Ideal) a (ix2 b q) = (M : EReal)) :
    val_main_v10 (F := Ideal) a (ix3 b q k)
      = (0 : EReal) + ∑ j : Fin 4096, Ideal.exp (((score a b q j : ℝ) : EReal) - (M : EReal)) := by
  have hi : idx_main_v9 (idx_main_v10 (ix3 b q k)) = ix2 b q :=
    funext fun d => Fin.ext (by match d with | ⟨0, _⟩ => rfl | ⟨1, _⟩ => rfl)
  rw [val_main_v10_apply, val_main_v9_apply, hi, val_main_v8_apply, val_main_cst_1_apply, Ideal.ofBits_def,
    Ideal.ofBits_zero_f32]
  refine congrArg ((0 : EReal) + ·) ?_
  apply Finset.sum_congr rfl
  intro j _
  have hj : idx_main_v8 (ix2 b q) j = ix3 b q j :=
    funext fun d => Fin.ext (by match d with | ⟨0, _⟩ => rfl | ⟨1, _⟩ => rfl | ⟨2, _⟩ => rfl)
  rw [hj, weight_at a hfin b q j M hM]

/-- The reference's last stage is the specification. -/
theorem ref_val_eq (a : FVec Ideal S4x4096x1024 .f32) (hfin : ∀ i, ∃ v : ℝ, a i = v) : val_main_v12 (F := Ideal) a = G a := by
  funext i
  obtain ⟨b, q, c, rfl⟩ : ∃ (b : Fin 4) (q : Fin 4096) (c : Fin 1024), i = ix3 b q c := ⟨i 0, i 1, i 2, eq_ix3 i⟩
  obtain ⟨M, hM⟩ := rowmax_real a hfin b q
  rw [G_apply, val_main_v12_apply]
  unfold attn
  rw [← RefAlgebra.softmax_row_coe Finset.univ Finset.univ_nonempty (score a b q) (fun k => xr a b k c) M]
  apply Finset.sum_congr rfl
  intro k _
  have hl : lidx_main_v12 (ix3 b q c) k = ix3 b q k :=
    funext fun d => Fin.ext (by match d with | ⟨0, _⟩ => rfl | ⟨1, _⟩ => rfl | ⟨2, _⟩ => rfl)
  have hr : ridx_main_v12 (ix3 b q c) k = ix3 b k c :=
    funext fun d => Fin.ext (by match d with | ⟨0, _⟩ => rfl | ⟨1, _⟩ => rfl | ⟨2, _⟩ => rfl)
  rw [hl, hr, val_main_v11_apply, weight_at a hfin b q k M hM, denom_at a hfin b q k M hM, Ideal.hostDivf_def,
    coe_xr a hfin]

end Stages

/-- The reference's result, as the composed term its run is stated with, is the specification of its argument,
    where the argument's entries are real. -/
theorem ref_eq (a : FVec Ideal S4x4096x1024 .f32) (hfin : ∀ i, ∃ v : ℝ, a i = v) :
    Host.dotGeneral (F := Ideal) dot_S4x4096x4096_S4x4096x1024_S4x4096x1024_2_1_1_2_0_0 none (Host.divf (F := Ideal) (Host.exp (F := Ideal) (subf (Host.dotGeneral (F := Ideal) dot_S4x4096x1024_S4x4096x1024_S4x4096x4096_2_2_1_1_0_0 none a a) (broadcastInDim S4x4096x4096 ![0, 1, 2] bcast_S4x4096x1_S4x4096x4096_0_1_2 (broadcastInDim S4x4096x1 ![0, 1] bcast_S4x4096_S4x4096x1_0_1 (maximumf (broadcastInDim S4x4096 ![] bcast_S_S4x4096 (constant (F := Ideal) S_ .f32 0xFF800000#32)) (Host.reduce (FloatOps.maximumf (F := Ideal) (φ := .f32)) (Host.dotGeneral (F := Ideal) dot_S4x4096x1024_S4x4096x1024_S4x4096x4096_2_2_1_1_0_0 none a a) (constant (F := Ideal) S_ .f32 0xFF800000#32) reducesTo_S4x4096x4096_S4x4096_d2 h_S_)))))) (broadcastInDim S4x4096x4096 ![0, 1, 2] bcast_S4x4096x1_S4x4096x4096_0_1_2 (broadcastInDim S4x4096x1 ![0, 1] bcast_S4x4096_S4x4096x1_0_1 (Host.reduceAdd (F := Ideal) (Host.exp (F := Ideal) (subf (Host.dotGeneral (F := Ideal) dot_S4x4096x1024_S4x4096x1024_S4x4096x4096_2_2_1_1_0_0 none a a) (broadcastInDim S4x4096x4096 ![0, 1, 2] bcast_S4x4096x1_S4x4096x4096_0_1_2 (broadcastInDim S4x4096x1 ![0, 1] bcast_S4x4096_S4x4096x1_0_1 (maximumf (broadcastInDim S4x4096 ![] bcast_S_S4x4096 (constant (F := Ideal) S_ .f32 0xFF800000#32)) (Host.reduce (FloatOps.maximumf (F := Ideal) (φ := .f32)) (Host.dotGeneral (F := Ideal) dot_S4x4096x1024_S4x4096x1024_S4x4096x4096_2_2_1_1_0_0 none a a) (constant (F := Ideal) S_ .f32 0xFF800000#32) reducesTo_S4x4096x4096_S4x4096_d2 h_S_)))))) (constant (F := Ideal) S_ .f32 0x00000000#32) reducesTo_S4x4096x4096_S4x4096_d2 h_S_)))) a
      = G a :=
  (val_main_v12_eq (F := Ideal) a).trans (ref_val_eq a hfin)

end Cert.RefAttn

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.FiniteArg.lean ====
/-
  From the precondition to real entries.

  The precondition says that one bit is set: the conjunction, over every entry of the argument array, of
  "the entry's absolute value is below plus infinity". An extended real whose absolute value is below plus infinity
  is a real number, so under the precondition every entry of the argument is a real number, on every device.
-/
import proofs.«103140_j1494648619253_2_alg».proof.Defs
import proofs.«103140_j1494648619253_2_alg».proof.Proof.LibFiniteEntries

noncomputable section

namespace Cert.FiniteArg

open Idealize.ShloMosaic Idealize.SL.Sem Idealize.ShloMosaic.ValueIdx

/-- Under the precondition every entry of the kernel's argument is a real number. -/
theorem real_arg [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S4x4096x1024.Idx) :
    ∃ v : ℝ, (m ((c.tc : Thread Cert.KernelIdeal.nD Cert.KernelIdeal.τ).loc Cert.KernelIdeal.main_arg0) i : EReal)
      = (v : EReal) := by
  have e := congrFun (h c) ValueIdx.ix0
  dsimp only [Cert.Pre_finite_inputs.fn] at e
  exact Cert.LibFiniteEntries.real_entries_of_all_lt_inf _ _ _ _ _ e i

end Cert.FiniteArg

end
-- ==== Proof.Claims.lean ====
/-
  The five claims.

  Frames. Each kernel program's frame is its region's launch (the two input windows reading one array at half shares)
  with the argument read back at the end; the reference's frame is its run with the result dropped.
  Preservation. The idealization rewrote nothing: the claim is True.
  Equality at the ideal values. With every entry of the argument real (the precondition), the kernel's result array is
  the attention specification of the argument — the online-softmax recurrence over eight key blocks, closed at each
  query tile's last block — and so is the reference's softmax-then-multiply: one function of arguments that agree.
-/
import proofs.«103140_j1494648619253_2_alg».proof.Defs
import proofs.«103140_j1494648619253_2_alg».proof.Proof.Gen.Kernel
import proofs.«103140_j1494648619253_2_alg».proof.Proof.Gen.KernelIdeal
import proofs.«103140_j1494648619253_2_alg».proof.Proof.Gen.ReferenceIdeal
import proofs.«103140_j1494648619253_2_alg».proof.Proof.Gen.Pre_finite_inputs
import proofs.«103140_j1494648619253_2_alg».proof.Proof.Gen.ReferenceIdeal.Run
import proofs.«103140_j1494648619253_2_alg».proof.Proof.Kernel.Launch
import proofs.«103140_j1494648619253_2_alg».proof.Proof.KernelIdeal.Value
import proofs.«103140_j1494648619253_2_alg».proof.Proof.RefAttn
import proofs.«103140_j1494648619253_2_alg».proof.Proof.FiniteArg

noncomputable section

namespace Cert.Proof.Claims

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  have hfin : ∀ (c : Dev Cert.KernelIdeal.nD) (i : Cert.AttnSpec.SX.Idx), ∃ v : ℝ, Cert.KernelIdeal.Val.arg m c i = (v : EReal) :=
    fun c i => Cert.FiniteArg.real_arg m hpre c i
  refine ⟨fun c => Cert.AttnSpec.G (Cert.KernelIdeal.Val.arg m c), ?_, ?_⟩
  · refine (θ_run Cert.KernelIdeal.defs _ _).mono (fun r h c => ⟨?_, (h c).2⟩) (Cert.KernelIdeal.Frm.run_main m ρ)
    exact ((h c).1 2).trans (Cert.KernelIdeal.Val.final m hfin c)
  · refine (θ_run Cert.ReferenceIdeal.defs _ _).mono (fun _ h c => ⟨?_, (h c).2⟩)
      (Cert.ReferenceIdeal.Value.run (F := Ideal) m' ρ')
    rw [(h c).1, hagree c]
    exact Cert.RefAttn.ref_eq _ (fun i => hfin c i)

end Cert.Proof.Claims

end
-- ==== Proof.lean ====
/-
  A flash-attention kernel (an online softmax over eight blocks of 512 keys, per tile of 256 query rows, the query, key
  and value arrays all the one argument) against plain softmax attention: the two agree at the ideal values on every
  argument whose entries are real, and each program runs to the end leaving the argument as it found it.
  The claims are proved in Proof/Claims.lean; here they are assembled behind the witnesses of the programs' stated facts.
-/
import proofs.«103140_j1494648619253_2_alg».proof.Defs
import proofs.«103140_j1494648619253_2_alg».proof.Proof.Claims
import proofs.«103140_j1494648619253_2_alg».proof.Proof.Gen.Kernel
import proofs.«103140_j1494648619253_2_alg».proof.Proof.Gen.KernelIdeal
import proofs.«103140_j1494648619253_2_alg».proof.Proof.Gen.ReferenceIdeal
import proofs.«103140_j1494648619253_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
